-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S2048x8192 : S_.BroadcastsInDim S2048x8192 (![] : Fin 0 → Fin S2048x8192.rank)
  reducesTo_S2048x8192_S_d0_1 : S2048x8192.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S2x4096x2048 .f32) (main_arg1 : FVec F S8192x2048 .f32) (main_arg2 : FVec F S8192 .f32) (main_arg3 : FVec F S2048x8192 .f32) (main_arg4 : FVec F S2048 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S2x4096x2048 : Shape := ⟨3, ![2, 4096, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S1x8192 : Shape := ⟨2, ![1, 8192]⟩
abbrev S1x2048 : Shape := ⟨2, ![1, 2048]⟩
abbrev S_ : Shape := ⟨0, ![]⟩
abbrev S8192x8192 : Shape := ⟨2, ![8192, 8192]⟩
abbrev S512x2048 : Shape := ⟨2, ![512, 2048]⟩
abbrev S1x512 : Shape := ⟨2, ![1, 512]⟩
abbrev S512x512 : Shape := ⟨2, ![512, 512]⟩
abbrev S512 : Shape := ⟨1, ![512]⟩
abbrev S512x1 : Shape := ⟨2, ![512, 1]⟩
abbrev S2048x512 : Shape := ⟨2, ![2048, 512]⟩
abbrev S256x8192 : Shape := ⟨2, ![256, 8192]⟩
abbrev S1x256 : Shape := ⟨2, ![1, 256]⟩
abbrev S256x256 : Shape := ⟨2, ![256, 256]⟩
abbrev S256 : Shape := ⟨1, ![256]⟩
abbrev S256x1 : Shape := ⟨2, ![256, 1]⟩
abbrev S8192x256 : Shape := ⟨2, ![8192, 256]⟩

abbrev nBuf : Space → Nat
  | .hbm => 59
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .f32⟩
  | .hbm, ⟨2, _⟩ => ⟨S8192, .f32⟩
  | .hbm, ⟨3, _⟩ => ⟨S2048x8192, .f32⟩
  | .hbm, ⟨4, _⟩ => ⟨S2048, .f32⟩
  | .hbm, ⟨5, _⟩ => ⟨S8192x2048, .f32⟩
  | .hbm, ⟨6, _⟩ => ⟨S1x8192, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | .hbm, ⟨32, _⟩ => ⟨S2048x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048x8192, .f32⟩
  | .hbm, ⟨43, _⟩ => ⟨S2048x8192, .f32⟩
  | .hbm, ⟨44, _⟩ => ⟨S2048x8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048x8192, .f32⟩
  | .hbm, ⟨49, _⟩ => ⟨S2048x8192, .f32⟩
  | .hbm, ⟨50, _⟩ => ⟨S_, .f32⟩
  | .hbm, ⟨51, _⟩ => ⟨S2048x8192, .f32⟩
  | .hbm, ⟨52, _⟩ => ⟨S2048x8192, .f32⟩
  | .hbm, ⟨53, _⟩ => ⟨S2048x8192, .f32⟩
  | .hbm, ⟨54, _⟩ => ⟨S2048x8192, .f32⟩
  | .hbm, ⟨55, _⟩ => ⟨S2048x8192, .bf16⟩
  | .hbm, ⟨56, _⟩ => ⟨S8192x8192, .bf16⟩
  | .hbm, ⟨57, _⟩ => ⟨S8192x2048, .f32⟩
  | .hbm, ⟨58, _⟩ => ⟨S2x4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S256x8192, .bf16⟩
  | .local _ .vmem, ⟨9, _⟩ => ⟨S256x8192, .bf16⟩
  | .local _ .vmem, ⟨10, _⟩ => ⟨S256x8192, .bf16⟩
  | .local _ .vmem, ⟨11, _⟩ => ⟨S256x8192, .bf16⟩
  | .local _ .vmem, ⟨12, _⟩ => ⟨S1x256, .f32⟩
  | .local _ .vmem, ⟨13, _⟩ => ⟨S1x256, .f32⟩
  | .local _ .vmem, ⟨14, _⟩ => ⟨S256x256, .f32⟩
  | .local _ .vmem, ⟨15, _⟩ => ⟨S256x256, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_call0_v0 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_cst_4 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_cst_6 : Ref sig .tc := ⟨.hbm, 35, rfl⟩
abbrev main_v17 : Ref sig .tc := ⟨.hbm, 36, rfl⟩
abbrev main_cst_7 : Ref sig .tc := ⟨.hbm, 37, rfl⟩
abbrev main_call3_v0 : Ref sig .tc := ⟨.hbm, 38, rfl⟩
abbrev main_v18 : Ref sig .tc := ⟨.hbm, 39, rfl⟩
abbrev main_cst_8 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_9 : Ref sig .tc := ⟨.hbm, 45, rfl⟩
abbrev main_cst_10 : Ref sig .tc := ⟨.hbm, 46, rfl⟩
abbrev main_call5_v0 : Ref sig .tc := ⟨.hbm, 47, rfl⟩
abbrev main_call5_v1 : Ref sig .tc := ⟨.hbm, 48, rfl⟩
abbrev main_call5_v2 : Ref sig .tc := ⟨.hbm, 49, rfl⟩
abbrev main_call5_v3 : Ref sig .tc := ⟨.hbm, 50, rfl⟩
abbrev main_call5_v4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S2x4096x2048_S8192x2048 : S2x4096x2048.ShapeCasts S8192x2048
  shapeCasts_S8192_S1x8192 : S8192.ShapeCasts S1x8192
  shapeCasts_S2048_S1x2048 : S2048.ShapeCasts S1x2048
  reducesTo_S8192x2048_S_d0_1 : S8192x2048.ReducesTo [0, 1] S_
  h_S_ : 0 < S_.numel
  bcast_S_S8192x2048 : S_.BroadcastsInDim S8192x2048 (![] : Fin 0 → Fin S8192x2048.rank)
  bitsLt_bf16_f32 : FTy.bits .bf16 < FTy.bits .f32
  reducesTo_S2048x8192_S_d0_1 : S2048x8192.ReducesTo [0, 1] S_
  bcast_S_S2048x8192 : S_.BroadcastsInDim S2048x8192 (![] : Fin 0 → Fin S2048x8192.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  transposes_S512x2048_p1_0_S2048x512 : S512x2048.Transposes [1, 0] S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  reduces_S256x8192_S256 : S256x8192.Reduces [1] S256
  shapeCasts_S256_S256x1 : S256.ShapeCasts S256x1
  broadcasts_S256x1_S256x8192 : S256x1.Broadcasts S256x8192
  transposes_S256x8192_p1_0_S8192x256 : S256x8192.Transposes [1, 0] S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S8192x2048_S2x4096x2048 : S8192x2048.ShapeCasts S2x4096x2048
  dot_S512x2048_S2048x512_S512x512_1_0_0_1_n_n_wf : DotDims.WF S512x2048 S2048x512 S512x512 [1] [0] [0] [1] [] []
  dot_S256x8192_S8192x256_S256x256_1_0_0_1_n_n_wf : DotDims.WF S256x8192 S8192x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x8192.size a
  hwx0_3 : ∀ i : grid0.Coords, EltTy.bits .bf16 = 32 ∨ (Rect.block (s := S8192x8192) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .bf16 = 32 ∨ (Rect.block (s := S8192x8192) S256x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S2048x8192.size a
  hwx1_1 : ∀ i : grid1.Coords, EltTy.bits .bf16 = 32 ∨ (Rect.block (s := S2048x8192) S256x8192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x2048.size a
  hwx1_2 : ∀ i : grid1.Coords, EltTy.bits .f32 = 32 ∨ (Rect.block (s := S1x2048) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S8192x2048.size a
  hwx1_3 : ∀ i : grid1.Coords, EltTy.bits .f32 = 32 ∨ (Rect.block (s := S8192x2048) S256x256.size (cc1_transform_3 i) (hinb1_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x4096x2048 : Shape := ⟨3, ![2, 4096, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S2x4096x8192 : Shape := ⟨3, ![2, 4096, 8192]⟩
abbrev S1x1x8192 : Shape := ⟨3, ![1, 1, 8192]⟩
abbrev S1x1x2048 : Shape := ⟨3, ![1, 1, 2048]⟩

abbrev nBuf : Space → Nat
  | .hbm => 118
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .f32⟩
  | .hbm, ⟨2, _⟩ => ⟨S8192, .f32⟩
  | .hbm, ⟨3, _⟩ => ⟨S2048x8192, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x4096x2048, .f32⟩
  | .hbm, ⟨23, _⟩ => ⟨S2x4096x2048, .f32⟩
  | .hbm, ⟨24, _⟩ => ⟨S_, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S8192x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S2x4096x8192, .f32⟩
  | .hbm, ⟨57, _⟩ => ⟨S1x1x8192, .f32⟩
  | .hbm, ⟨58, _⟩ => ⟨S2x4096x8192, .f32⟩
  | .hbm, ⟨59, _⟩ => ⟨S2x4096x8192, .f32⟩
  | .hbm, ⟨60, _⟩ => ⟨S_, .f32⟩
  | .hbm, ⟨61, _⟩ => ⟨S2x4096x8192, .f32⟩
  | .hbm, ⟨62, _⟩ => ⟨S2x4096x8192, .f32⟩
  | .hbm, ⟨63, _⟩ => ⟨S2x4096x8192, .f32⟩
  | .hbm, ⟨64, _⟩ => ⟨S_, .f32⟩
  | .hbm, ⟨65, _⟩ => ⟨S2x4096, .f32⟩
  | .hbm, ⟨66, _⟩ => ⟨S2x4096x1, .f32⟩
  | .hbm, ⟨67, _⟩ => ⟨S_, .f32⟩
  | .hbm, ⟨68, _⟩ => ⟨S_, .f32⟩
  | .hbm, ⟨69, _⟩ => ⟨S2x4096x1, .f32⟩
  | .hbm, ⟨70, _⟩ => ⟨S2x4096x1, .f32⟩
  | .hbm, ⟨71, _⟩ => ⟨S_, .f32⟩
  | .hbm, ⟨72, _⟩ => ⟨S2x4096x1, .f32⟩
  | .hbm, ⟨73, _⟩ => ⟨S2x4096x1, .f32⟩
  | .hbm, ⟨74, _⟩ => ⟨S2x4096x8192, .f32⟩
  | .hbm, ⟨75, _⟩ => ⟨S2x4096x8192, .f32⟩
  | .hbm, ⟨76, _⟩ => ⟨S2x4096x8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S2x4096x8192, .f32⟩
  | .hbm, ⟨81, _⟩ => ⟨S2x4096x8192, .f32⟩
  | .hbm, ⟨82, _⟩ => ⟨S_, .f32⟩
  | .hbm, ⟨83, _⟩ => ⟨S2x4096x8192, .f32⟩
  | .hbm, ⟨84, _⟩ => ⟨S2x4096x8192, .f32⟩
  | .hbm, ⟨85, _⟩ => ⟨S2x4096x8192, .f32⟩
  | .hbm, ⟨86, _⟩ => ⟨S2x4096x8192, .f32⟩
  | .hbm, ⟨87, _⟩ => ⟨S2x4096x8192, .f32⟩
  | .hbm, ⟨88, _⟩ => ⟨S2x4096x8192, .f32⟩
  | .hbm, ⟨89, _⟩ => ⟨S2048x8192, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S2048x8192, .f32⟩
  | .hbm, ⟨100, _⟩ => ⟨S2048x8192, .f32⟩
  | .hbm, ⟨101, _⟩ => ⟨S2048x8192, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S2048x8192, .f32⟩
  | .hbm, ⟨106, _⟩ => ⟨S2048x8192, .f32⟩
  | .hbm, ⟨107, _⟩ => ⟨S_, .f32⟩
  | .hbm, ⟨108, _⟩ => ⟨S2048x8192, .f32⟩
  | .hbm, ⟨109, _⟩ => ⟨S2048x8192, .f32⟩
  | .hbm, ⟨110, _⟩ => ⟨S2048x8192, .f32⟩
  | .hbm, ⟨111, _⟩ => ⟨S2048x8192, .f32⟩
  | .hbm, ⟨112, _⟩ => ⟨S2048x8192, .f32⟩
  | .hbm, ⟨113, _⟩ => ⟨S2048x8192, .f32⟩
  | .hbm, ⟨114, _⟩ => ⟨S2x4096x2048, .f32⟩
  | .hbm, ⟨115, _⟩ => ⟨S1x1x2048, .f32⟩
  | .hbm, ⟨116, _⟩ => ⟨S2x4096x2048, .f32⟩
  | .hbm, ⟨117, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_cst_3 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_cst_6 : Ref sig .tc := ⟨.hbm, 36, rfl⟩
abbrev main_call3_v0 : Ref sig .tc := ⟨.hbm, 37, rfl⟩
abbrev main_v17 : Ref sig .tc := ⟨.hbm, 38, rfl⟩
abbrev main_cst_7 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_8 : Ref sig .tc := ⟨.hbm, 44, rfl⟩
abbrev main_cst_9 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_call5_v3 : Ref sig .tc := ⟨.hbm, 49, rfl⟩
abbrev main_call5_v4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call6_cst : Ref sig .tc := ⟨.hbm, 60, rfl⟩
abbrev main_call6_v0 : Ref sig .tc := ⟨.hbm, 61, rfl⟩
abbrev main_v31 : Ref sig .tc := ⟨.hbm, 62, rfl⟩
abbrev main_v32 : Ref sig .tc := ⟨.hbm, 63, rfl⟩
abbrev main_cst_10 : Ref sig .tc := ⟨.hbm, 64, rfl⟩
abbrev main_v33 : Ref sig .tc := ⟨.hbm, 65, rfl⟩
abbrev main_v34 : Ref sig .tc := ⟨.hbm, 66, rfl⟩
abbrev main_cst_11 : Ref sig .tc := ⟨.hbm, 67, rfl⟩
abbrev main_call7_v0 : Ref sig .tc := ⟨.hbm, 68, rfl⟩
abbrev main_call7_v1 : Ref sig .tc := ⟨.hbm, 69, rfl⟩
abbrev main_v35 : Ref sig .tc := ⟨.hbm, 70, rfl⟩
abbrev main_cst_12 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_13 : Ref sig .tc := ⟨.hbm, 77, rfl⟩
abbrev main_cst_14 : Ref sig .tc := ⟨.hbm, 78, rfl⟩
abbrev main_call9_v0 : Ref sig .tc := ⟨.hbm, 79, rfl⟩
abbrev main_call9_v1 : Ref sig .tc := ⟨.hbm, 80, rfl⟩
abbrev main_call9_v2 : Ref sig .tc := ⟨.hbm, 81, rfl⟩
abbrev main_call9_v3 : Ref sig .tc := ⟨.hbm, 82, rfl⟩
abbrev main_call9_v4 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_15 : Ref sig .tc := ⟨.hbm, 90, rfl⟩
abbrev main_v47 : Ref sig .tc := ⟨.hbm, 91, rfl⟩
abbrev main_cst_16 : Ref sig .tc := ⟨.hbm, 92, rfl⟩
abbrev main_v48 : Ref sig .tc := ⟨.hbm, 93, rfl⟩
abbrev main_cst_17 : Ref sig .tc := ⟨.hbm, 94, rfl⟩
abbrev main_call10_v0 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_19 : Ref sig .tc := ⟨.hbm, 102, rfl⟩
abbrev main_cst_20 : Ref sig .tc := ⟨.hbm, 103, rfl⟩
abbrev main_call12_v0 : Ref sig .tc := ⟨.hbm, 104, rfl⟩
abbrev main_call12_v1 : Ref sig .tc := ⟨.hbm, 105, rfl⟩
abbrev main_call12_v2 : Ref sig .tc := ⟨.hbm, 106, rfl⟩
abbrev main_call12_v3 : Ref sig .tc := ⟨.hbm, 107, rfl⟩
abbrev main_call12_v4 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩

abbrev nD : Nat := 1
abbrev τ : Topo := Topo.v7x

variable {F : FTy → Type} [FloatOps F]

class Facts₀ : Prop where
  reducesTo_S2x4096x2048_S2x4096_d2 : S2x4096x2048.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x2048_0_1_2 : S2x4096x1.BroadcastsInDim S2x4096x2048 (![0, 1, 2] : Fin 3 → Fin S2x4096x2048.rank)
  bcast_S_S2x4096x2048 : S_.BroadcastsInDim S2x4096x2048 (![] : Fin 0 → Fin S2x4096x2048.rank)
  reducesTo_S8192x2048_S_d0_1 : S8192x2048.ReducesTo [0, 1] S_
  bcast_S_S8192x2048 : S_.BroadcastsInDim S8192x2048 (![] : Fin 0 → Fin S8192x2048.rank)
  bcast_S8192_S1x1x8192_2 : S8192.BroadcastsInDim S1x1x8192 (![2] : Fin 1 → Fin S1x1x8192.rank)
  bcast_S1x1x8192_S2x4096x8192_0_1_2 : S1x1x8192.BroadcastsInDim S2x4096x8192 (![0, 1, 2] : Fin 3 → Fin S2x4096x8192.rank)
  bcast_S_S2x4096x8192 : S_.BroadcastsInDim S2x4096x8192 (![] : Fin 0 → Fin S2x4096x8192.rank)
  reducesTo_S2x4096x8192_S2x4096_d2 : S2x4096x8192.ReducesTo [2] S2x4096
  bcast_S2x4096x1_S2x4096x8192_0_1_2 : S2x4096x1.BroadcastsInDim S2x4096x8192 (![0, 1, 2] : Fin 3 → Fin S2x4096x8192.rank)
  reducesTo_S2048x8192_S_d0_1 : S2048x8192.ReducesTo [0, 1] S_
  bcast_S_S2048x8192 : S_.BroadcastsInDim S2048x8192 (![] : Fin 0 → Fin S2048x8192.rank)
  bcast_S2048_S1x1x2048_2 : S2048.BroadcastsInDim S1x1x2048 (![2] : Fin 1 → Fin S1x1x2048.rank)
  bcast_S1x1x2048_S2x4096x2048_0_1_2 : S1x1x2048.BroadcastsInDim S2x4096x2048 (![0, 1, 2] : Fin 3 → Fin S2x4096x2048.rank)
  dot_S2x4096x2048_S8192x2048_S2x4096x8192_2_1_01_0_n_n_wf : DotDims.WF S2x4096x2048 S8192x2048 S2x4096x8192 [2] [1] [0, 1] [0] [] []
  dot_S2x4096x8192_S2048x8192_S2x4096x2048_2_1_01_0_n_n_wf : DotDims.WF S2x4096x8192 S2048x8192 S2x4096x2048 [2] [1] [0, 1] [0] [] []

variable [Facts₀]

def dot_S2x4096x2048_S8192x2048_S2x4096x8192_2_1_01_0_n_n : DotDims S2x4096x2048 S8192x2048 S2x4096x8192 where
  lhsContracting := [2]
  rhsContracting := [1]
  lhsNonContracting := [0, 1]
  rhsNonContracting := [0]
  lhsBatch := []
  rhsBatch := []
  wf := dot_S2x4096x2048_S8192x2048_S2x4096x8192_2_1_01_0_n_n_wf
def dot_S2x4096x8192_S2048x8192_S2x4096x2048_2_1_01_0_n_n : DotDims S2x4096x8192 S2048x8192 S2x4096x2048 where
  lhsContracting := [2]
  rhsContracting := [1]
  lhsNonContracting := [0, 1]
  rhsNonContracting := [0]
  lhsBatch := []
  rhsBatch := []
  wf := dot_S2x4096x8192_S2048x8192_S2x4096x2048_2_1_01_0_n_n_wf

class Facts : Prop extends Facts₀ where

variable [Facts]
-- ==== Proof.RefRun.lean ====
/-
  The reference program's result as one function of its arguments.

  The reference is a straight line of 113 array operations, so its result buffer ends at the fold of the operations'
  results over the launch contents. The fold is read in six stretches, each small and with few values alive at its
  ends: the quantized tokens; the first quantized weights; the hidden array (product, bias, positive part); the
  quantized hidden array; the second quantized weights; the final product and bias. Each stretch turns the values
  alive before it into the values alive after it, and leaves the other buffers it does not write as they were.
-/
import proofs.«126453_j69544110457391_2_alg».proof.Proof.ReadP
import Idealize.ShloMosaic.Lib.StableHlo.Run

set_option maxRecDepth 16384

noncomputable section

namespace Cert.BitMlp

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The fold over a concatenation is the fold over the second list from the fold over the first. -/
theorem after_append' (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The six stretches of the operation list. -/
abbrev opsA : List (HloOp τ sig (Elt F)) :=
  [ unary main_arg0 main_v0 (Host.absf : (⟨S2x4096x2048, .f32⟩ : BufTy).Contents (Elt F) → (⟨S2x4096x2048, .f32⟩ : BufTy).Contents (Elt F)),
    nullary main_cst (constant S_ .f32 0xFF800000#32),
    binary main_v0 main_cst main_v1 ((fun x v => Host.reduce FloatOps.maximumf x v reducesTo_S2x4096x2048_S2x4096_d2 h_S_) : (⟨S2x4096x2048, .f32⟩ : BufTy).Contents (Elt F) → (⟨S_, .f32⟩ : BufTy).Contents (Elt F) → (⟨S2x4096, .f32⟩ : BufTy).Contents (Elt F)),
    unary main_v1 main_v2 (broadcastInDim S2x4096x1 ![0, 1] bcast_S2x4096_S2x4096x1_0_1 : (⟨S2x4096, .f32⟩ : BufTy).Contents (Elt F) → (⟨S2x4096x1, .f32⟩ : BufTy).Contents (Elt F)),
    nullary main_cst_0 (constant S_ .f32 0x3727C5AC#32),
    unary main_cst_0 main_call0_v0 (id : (⟨S_, .f32⟩ : BufTy).Contents (Elt F) → (⟨S_, .f32⟩ : BufTy).Contents (Elt F)),
    unary main_call0_v0 main_call0_v1 (broadcastInDim S2x4096x1 ![] bcast_S_S2x4096x1 : (⟨S_, .f32⟩ : BufTy).Contents (Elt F) → (⟨S2x4096x1, .f32⟩ : BufTy).Contents (Elt F)),
    binary main_call0_v1 main_v2 main_v3 (maximumf : (⟨S2x4096x1, .f32⟩ : BufTy).Contents (Elt F) → (⟨S2x4096x1, .f32⟩ : BufTy).Contents (Elt F) → (⟨S2x4096x1, .f32⟩ : BufTy).Contents (Elt F)),
    nullary main_cst_1 (constant S_ .f32 0x42FE0000#32),
    unary main_cst_1 main_v4 (broadcastInDim S2x4096x1 ![] bcast_S_S2x4096x1 : (⟨S_, .f32⟩ : BufTy).Contents (Elt F) → (⟨S2x4096x1, .f32⟩ : BufTy).Contents (Elt F)),
    binary main_v4 main_v3 main_v5 (Host.divf : (⟨S2x4096x1, .f32⟩ : BufTy).Contents (Elt F) → (⟨S2x4096x1, .f32⟩ : BufTy).Contents (Elt F) → (⟨S2x4096x1, .f32⟩ : BufTy).Contents (Elt F)),
    unary main_v5 main_v6 (broadcastInDim S2x4096x2048 ![0, 1, 2] bcast_S2x4096x1_S2x4096x2048_0_1_2 : (⟨S2x4096x1, .f32⟩ : BufTy).Contents (Elt F) → (⟨S2x4096x2048, .f32⟩ : BufTy).Contents (Elt F)),
    binary main_arg0 main_v6 main_v7 (mulf : (⟨S2x4096x2048, .f32⟩ : BufTy).Contents (Elt F) → (⟨S2x4096x2048, .f32⟩ : BufTy).Contents (Elt F) → (⟨S2x4096x2048, .f32⟩ : BufTy).Contents (Elt F)),
    unary main_v7 main_v8 (Host.roundeven : (⟨S2x4096x2048, .f32⟩ : BufTy).Contents (Elt F) → (⟨S2x4096x2048, .f32⟩ : BufTy).Contents (Elt F)),
    nullary main_cst_2 (constant S_ .f32 0xC3000000#32),
    nullary main_cst_3 (constant S_ .f32 0x42FE0000#32),
    unary main_cst_2 main_call2_v0 (id : (⟨S_, .f32⟩ : BufTy).Contents (Elt F) → (⟨S_, .f32⟩ : BufTy).Contents (Elt F)),
    unary main_call2_v0 main_call2_v1 (broadcastInDim S2x4096x2048 ![] bcast_S_S2x4096x2048 : (⟨S_, .f32⟩ : BufTy).Contents (Elt F) → (⟨S2x4096x2048, .f32⟩ : BufTy).Contents (Elt F)),
    binary main_call2_v1 main_v8 main_call2_v2 (maximumf : (⟨S2x4096x2048, .f32⟩ : BufTy).Contents (Elt F) → (⟨S2x4096x2048, .f32⟩ : BufTy).Contents (Elt F) → (⟨S2x4096x2048, .f32⟩ : BufTy).Contents (Elt F)),
    unary main_cst_3 main_call2_v3 (id : (⟨S_, .f32⟩ : BufTy).Contents (Elt F) → (⟨S_, .f32⟩ : BufTy).Contents (Elt F)),
    unary main_call2_v3 main_call2_v4 (broadcastInDim S2x4096x2048 ![] bcast_S_S2x4096x2048 : (⟨S_, .f32⟩ : BufTy).Contents (Elt F) → (⟨S2x4096x2048, .f32⟩ : BufTy).Contents (Elt F)),
    binary main_call2_v4 main_call2_v2 main_v9 (minimumf : (⟨S2x4096x2048, .f32⟩ : BufTy).Contents (Elt F) → (⟨S2x4096x2048, .f32⟩ : BufTy).Contents (Elt F) → (⟨S2x4096x2048, .f32⟩ : BufTy).Contents (Elt F)),
    unary main_v5 main_v10 (broadcastInDim S2x4096x2048 ![0, 1, 2] bcast_S2x4096x1_S2x4096x2048_0_1_2 : (⟨S2x4096x1, .f32⟩ : BufTy).Contents (Elt F) → (⟨S2x4096x2048, .f32⟩ : BufTy).Contents (Elt F)),
    binary main_v9 main_v10 main_v11 (Host.divf : (⟨S2x4096x2048, .f32⟩ : BufTy).Contents (Elt F) → (⟨S2x4096x2048, .f32⟩ : BufTy).Contents (Elt F) → (⟨S2x4096x2048, .f32⟩ : BufTy).Contents (Elt F)),
    binary main_v11 main_arg0 main_v12 (subf : (⟨S2x4096x2048, .f32⟩ : BufTy).Contents (Elt F) → (⟨S2x4096x2048, .f32⟩ : BufTy).Contents (Elt F) → (⟨S2x4096x2048, .f32⟩ : BufTy).Contents (Elt F)),
    binary main_arg0 main_v12 main_v13 (addf : (⟨S2x4096x2048, .f32⟩ : BufTy).Contents (Elt F) → (⟨S2x4096x2048, .f32⟩ : BufTy).Contents (Elt F) → (⟨S2x4096x2048, .f32⟩ : BufTy).Contents (Elt F)) ]
abbrev opsB : List (HloOp τ sig (Elt F)) :=
  [ unary main_arg1 main_v14 (Host.absf : (⟨S8192x2048, .f32⟩ : BufTy).Contents (Elt F) → (⟨S8192x2048, .f32⟩ : BufTy).Contents (Elt F)),
    nullary main_cst_4 (constant S_ .f32 0x00000000#32),
    binary main_v14 main_cst_4 main_v15 ((fun x v => Host.reduceAdd x v reducesTo_S8192x2048_S_d0_1 h_S_) : (⟨S8192x2048, .f32⟩ : BufTy).Contents (Elt F) → (⟨S_, .f32⟩ : BufTy).Contents (Elt F) → (⟨S_, .f32⟩ : BufTy).Contents (Elt F)),
    nullary main_cst_5 (constant S_ .f32 0x4B800000#32),
    binary main_v15 main_cst_5 main_v16 (Host.divf : (⟨S_, .f32⟩ : BufTy).Contents (Elt F) → (⟨S_, .f32⟩ : BufTy).Contents (Elt F) → (⟨S_, .f32⟩ : BufTy).Contents (Elt F)),
    nullary main_cst_6 (constant S_ .f32 0x3727C5AC#32),
    unary main_cst_6 main_call3_v0 (id : (⟨S_, .f32⟩ : BufTy).Contents (Elt F) → (⟨S_, .f32⟩ : BufTy).Contents (Elt F)),
    binary main_call3_v0 main_v16 main_v17 (maximumf : (⟨S_, .f32⟩ : BufTy).Contents (Elt F) → (⟨S_, .f32⟩ : BufTy).Contents (Elt F) → (⟨S_, .f32⟩ : BufTy).Contents (Elt F)),
    nullary main_cst_7 (constant S_ .f32 0x3F800000#32),
    binary main_cst_7 main_v17 main_v18 (Host.divf : (⟨S_, .f32⟩ : BufTy).Contents (Elt F) → (⟨S_, .f32⟩ : BufTy).Contents (Elt F) → (⟨S_, .f32⟩ : BufTy).Contents (Elt F)),
    unary main_v18 main_v19 (broadcastInDim S8192x2048 ![] bcast_S_S8192x2048 : (⟨S_, .f32⟩ : BufTy).Contents (Elt F) → (⟨S8192x2048, .f32⟩ : BufTy).Contents (Elt F)),
    binary main_arg1 main_v19 main_v20 (mulf : (⟨S8192x2048, .f32⟩ : BufTy).Contents (Elt F) → (⟨S8192x2048, .f32⟩ : BufTy).Contents (Elt F) → (⟨S8192x2048, .f32⟩ : BufTy).Contents (Elt F)),
    unary main_v20 main_v21 (Host.roundeven : (⟨S8192x2048, .f32⟩ : BufTy).Contents (Elt F) → (⟨S8192x2048, .f32⟩ : BufTy).Contents (Elt F)),
    nullary main_cst_8 (constant S_ .f32 0xBF800000#32),
    nullary main_cst_9 (constant S_ .f32 0x3F800000#32),
    unary main_cst_8 main_call5_v0 (id : (⟨S_, .f32⟩ : BufTy).Contents (Elt F) → (⟨S_, .f32⟩ : BufTy).Contents (Elt F)),
    unary main_call5_v0 main_call5_v1 (broadcastInDim S8192x2048 ![] bcast_S_S8192x2048 : (⟨S_, .f32⟩ : BufTy).Contents (Elt F) → (⟨S8192x2048, .f32⟩ : BufTy).Contents (Elt F)),
    binary main_call5_v1 main_v21 main_call5_v2 (maximumf : (⟨S8192x2048, .f32⟩ : BufTy).Contents (Elt F) → (⟨S8192x2048, .f32⟩ : BufTy).Contents (Elt F) → (⟨S8192x2048, .f32⟩ : BufTy).Contents (Elt F)),
    unary main_cst_9 main_call5_v3 (id : (⟨S_, .f32⟩ : BufTy).Contents (Elt F) → (⟨S_, .f32⟩ : BufTy).Contents (Elt F)),
    unary main_call5_v3 main_call5_v4 (broadcastInDim S8192x2048 ![] bcast_S_S8192x2048 : (⟨S_, .f32⟩ : BufTy).Contents (Elt F) → (⟨S8192x2048, .f32⟩ : BufTy).Contents (Elt F)),
    binary main_call5_v4 main_call5_v2 main_v22 (minimumf : (⟨S8192x2048, .f32⟩ : BufTy).Contents (Elt F) → (⟨S8192x2048, .f32⟩ : BufTy).Contents (Elt F) → (⟨S8192x2048, .f32⟩ : BufTy).Contents (Elt F)),
    unary main_v18 main_v23 (broadcastInDim S8192x2048 ![] bcast_S_S8192x2048 : (⟨S_, .f32⟩ : BufTy).Contents (Elt F) → (⟨S8192x2048, .f32⟩ : BufTy).Contents (Elt F)),
    binary main_v22 main_v23 main_v24 (Host.divf : (⟨S8192x2048, .f32⟩ : BufTy).Contents (Elt F) → (⟨S8192x2048, .f32⟩ : BufTy).Contents (Elt F) → (⟨S8192x2048, .f32⟩ : BufTy).Contents (Elt F)),
    binary main_v24 main_arg1 main_v25 (subf : (⟨S8192x2048, .f32⟩ : BufTy).Contents (Elt F) → (⟨S8192x2048, .f32⟩ : BufTy).Contents (Elt F) → (⟨S8192x2048, .f32⟩ : BufTy).Contents (Elt F)),
    binary main_arg1 main_v25 main_v26 (addf : (⟨S8192x2048, .f32⟩ : BufTy).Contents (Elt F) → (⟨S8192x2048, .f32⟩ : BufTy).Contents (Elt F) → (⟨S8192x2048, .f32⟩ : BufTy).Contents (Elt F)) ]
abbrev opsC : List (HloOp τ sig (Elt F)) :=
  [ binary main_v13 main_v26 main_v27 ((fun l r => Host.dotGeneral dot_S2x4096x2048_S8192x2048_S2x4096x8192_2_1_01_0_n_n none l r) : (⟨S2x4096x2048, .f32⟩ : BufTy).Contents (Elt F) → (⟨S8192x2048, .f32⟩ : BufTy).Contents (Elt F) → (⟨S2x4096x8192, .f32⟩ : BufTy).Contents (Elt F)),
    unary main_arg2 main_v28 (broadcastInDim S1x1x8192 ![2] bcast_S8192_S1x1x8192_2 : (⟨S8192, .f32⟩ : BufTy).Contents (Elt F) → (⟨S1x1x8192, .f32⟩ : BufTy).Contents (Elt F)),
    unary main_v28 main_v29 (broadcastInDim S2x4096x8192 ![0, 1, 2] bcast_S1x1x8192_S2x4096x8192_0_1_2 : (⟨S1x1x8192, .f32⟩ : BufTy).Contents (Elt F) → (⟨S2x4096x8192, .f32⟩ : BufTy).Contents (Elt F)),
    binary main_v27 main_v29 main_v30 (addf : (⟨S2x4096x8192, .f32⟩ : BufTy).Contents (Elt F) → (⟨S2x4096x8192, .f32⟩ : BufTy).Contents (Elt F) → (⟨S2x4096x8192, .f32⟩ : BufTy).Contents (Elt F)),
    nullary main_call6_cst (constant S_ .f32 0x00000000#32),
    unary main_call6_cst main_call6_v0 (broadcastInDim S2x4096x8192 ![] bcast_S_S2x4096x8192 : (⟨S_, .f32⟩ : BufTy).Contents (Elt F) → (⟨S2x4096x8192, .f32⟩ : BufTy).Contents (Elt F)),
    binary main_v30 main_call6_v0 main_v31 (maximumf : (⟨S2x4096x8192, .f32⟩ : BufTy).Contents (Elt F) → (⟨S2x4096x8192, .f32⟩ : BufTy).Contents (Elt F) → (⟨S2x4096x8192, .f32⟩ : BufTy).Contents (Elt F)) ]
abbrev opsD : List (HloOp τ sig (Elt F)) :=
  [ unary main_v31 main_v32 (Host.absf : (⟨S2x4096x8192, .f32⟩ : BufTy).Contents (Elt F) → (⟨S2x4096x8192, .f32⟩ : BufTy).Contents (Elt F)),
    nullary main_cst_10 (constant S_ .f32 0xFF800000#32),
    binary main_v32 main_cst_10 main_v33 ((fun x v => Host.reduce FloatOps.maximumf x v reducesTo_S2x4096x8192_S2x4096_d2 h_S_) : (⟨S2x4096x8192, .f32⟩ : BufTy).Contents (Elt F) → (⟨S_, .f32⟩ : BufTy).Contents (Elt F) → (⟨S2x4096, .f32⟩ : BufTy).Contents (Elt F)),
    unary main_v33 main_v34 (broadcastInDim S2x4096x1 ![0, 1] bcast_S2x4096_S2x4096x1_0_1 : (⟨S2x4096, .f32⟩ : BufTy).Contents (Elt F) → (⟨S2x4096x1, .f32⟩ : BufTy).Contents (Elt F)),
    nullary main_cst_11 (constant S_ .f32 0x3727C5AC#32),
    unary main_cst_11 main_call7_v0 (id : (⟨S_, .f32⟩ : BufTy).Contents (Elt F) → (⟨S_, .f32⟩ : BufTy).Contents (Elt F)),
    unary main_call7_v0 main_call7_v1 (broadcastInDim S2x4096x1 ![] bcast_S_S2x4096x1 : (⟨S_, .f32⟩ : BufTy).Contents (Elt F) → (⟨S2x4096x1, .f32⟩ : BufTy).Contents (Elt F)),
    binary main_call7_v1 main_v34 main_v35 (maximumf : (⟨S2x4096x1, .f32⟩ : BufTy).Contents (Elt F) → (⟨S2x4096x1, .f32⟩ : BufTy).Contents (Elt F) → (⟨S2x4096x1, .f32⟩ : BufTy).Contents (Elt F)),
    nullary main_cst_12 (constant S_ .f32 0x42FE0000#32),
    unary main_cst_12 main_v36 (broadcastInDim S2x4096x1 ![] bcast_S_S2x4096x1 : (⟨S_, .f32⟩ : BufTy).Contents (Elt F) → (⟨S2x4096x1, .f32⟩ : BufTy).Contents (Elt F)),
    binary main_v36 main_v35 main_v37 (Host.divf : (⟨S2x4096x1, .f32⟩ : BufTy).Contents (Elt F) → (⟨S2x4096x1, .f32⟩ : BufTy).Contents (Elt F) → (⟨S2x4096x1, .f32⟩ : BufTy).Contents (Elt F)),
    unary main_v37 main_v38 (broadcastInDim S2x4096x8192 ![0, 1, 2] bcast_S2x4096x1_S2x4096x8192_0_1_2 : (⟨S2x4096x1, .f32⟩ : BufTy).Contents (Elt F) → (⟨S2x4096x8192, .f32⟩ : BufTy).Contents (Elt F)),
    binary main_v31 main_v38 main_v39 (mulf : (⟨S2x4096x8192, .f32⟩ : BufTy).Contents (Elt F) → (⟨S2x4096x8192, .f32⟩ : BufTy).Contents (Elt F) → (⟨S2x4096x8192, .f32⟩ : BufTy).Contents (Elt F)),
    unary main_v39 main_v40 (Host.roundeven : (⟨S2x4096x8192, .f32⟩ : BufTy).Contents (Elt F) → (⟨S2x4096x8192, .f32⟩ : BufTy).Contents (Elt F)),
    nullary main_cst_13 (constant S_ .f32 0xC3000000#32),
    nullary main_cst_14 (constant S_ .f32 0x42FE0000#32),
    unary main_cst_13 main_call9_v0 (id : (⟨S_, .f32⟩ : BufTy).Contents (Elt F) → (⟨S_, .f32⟩ : BufTy).Contents (Elt F)),
    unary main_call9_v0 main_call9_v1 (broadcastInDim S2x4096x8192 ![] bcast_S_S2x4096x8192 : (⟨S_, .f32⟩ : BufTy).Contents (Elt F) → (⟨S2x4096x8192, .f32⟩ : BufTy).Contents (Elt F)),
    binary main_call9_v1 main_v40 main_call9_v2 (maximumf : (⟨S2x4096x8192, .f32⟩ : BufTy).Contents (Elt F) → (⟨S2x4096x8192, .f32⟩ : BufTy).Contents (Elt F) → (⟨S2x4096x8192, .f32⟩ : BufTy).Contents (Elt F)),
    unary main_cst_14 main_call9_v3 (id : (⟨S_, .f32⟩ : BufTy).Contents (Elt F) → (⟨S_, .f32⟩ : BufTy).Contents (Elt F)),
    unary main_call9_v3 main_call9_v4 (broadcastInDim S2x4096x8192 ![] bcast_S_S2x4096x8192 : (⟨S_, .f32⟩ : BufTy).Contents (Elt F) → (⟨S2x4096x8192, .f32⟩ : BufTy).Contents (Elt F)),
    binary main_call9_v4 main_call9_v2 main_v41 (minimumf : (⟨S2x4096x8192, .f32⟩ : BufTy).Contents (Elt F) → (⟨S2x4096x8192, .f32⟩ : BufTy).Contents (Elt F) → (⟨S2x4096x8192, .f32⟩ : BufTy).Contents (Elt F)),
    unary main_v37 main_v42 (broadcastInDim S2x4096x8192 ![0, 1, 2] bcast_S2x4096x1_S2x4096x8192_0_1_2 : (⟨S2x4096x1, .f32⟩ : BufTy).Contents (Elt F) → (⟨S2x4096x8192, .f32⟩ : BufTy).Contents (Elt F)),
    binary main_v41 main_v42 main_v43 (Host.divf : (⟨S2x4096x8192, .f32⟩ : BufTy).Contents (Elt F) → (⟨S2x4096x8192, .f32⟩ : BufTy).Contents (Elt F) → (⟨S2x4096x8192, .f32⟩ : BufTy).Contents (Elt F)),
    binary main_v43 main_v31 main_v44 (subf : (⟨S2x4096x8192, .f32⟩ : BufTy).Contents (Elt F) → (⟨S2x4096x8192, .f32⟩ : BufTy).Contents (Elt F) → (⟨S2x4096x8192, .f32⟩ : BufTy).Contents (Elt F)),
    binary main_v31 main_v44 main_v45 (addf : (⟨S2x4096x8192, .f32⟩ : BufTy).Contents (Elt F) → (⟨S2x4096x8192, .f32⟩ : BufTy).Contents (Elt F) → (⟨S2x4096x8192, .f32⟩ : BufTy).Contents (Elt F)) ]
abbrev opsE : List (HloOp τ sig (Elt F)) :=
  [ unary main_arg3 main_v46 (Host.absf : (⟨S2048x8192, .f32⟩ : BufTy).Contents (Elt F) → (⟨S2048x8192, .f32⟩ : BufTy).Contents (Elt F)),
    nullary main_cst_15 (constant S_ .f32 0x00000000#32),
    binary main_v46 main_cst_15 main_v47 ((fun x v => Host.reduceAdd x v reducesTo_S2048x8192_S_d0_1 h_S_) : (⟨S2048x8192, .f32⟩ : BufTy).Contents (Elt F) → (⟨S_, .f32⟩ : BufTy).Contents (Elt F) → (⟨S_, .f32⟩ : BufTy).Contents (Elt F)),
    nullary main_cst_16 (constant S_ .f32 0x4B800000#32),
    binary main_v47 main_cst_16 main_v48 (Host.divf : (⟨S_, .f32⟩ : BufTy).Contents (Elt F) → (⟨S_, .f32⟩ : BufTy).Contents (Elt F) → (⟨S_, .f32⟩ : BufTy).Contents (Elt F)),
    nullary main_cst_17 (constant S_ .f32 0x3727C5AC#32),
    unary main_cst_17 main_call10_v0 (id : (⟨S_, .f32⟩ : BufTy).Contents (Elt F) → (⟨S_, .f32⟩ : BufTy).Contents (Elt F)),
    binary main_call10_v0 main_v48 main_v49 (maximumf : (⟨S_, .f32⟩ : BufTy).Contents (Elt F) → (⟨S_, .f32⟩ : BufTy).Contents (Elt F) → (⟨S_, .f32⟩ : BufTy).Contents (Elt F)),
    nullary main_cst_18 (constant S_ .f32 0x3F800000#32),
    binary main_cst_18 main_v49 main_v50 (Host.divf : (⟨S_, .f32⟩ : BufTy).Contents (Elt F) → (⟨S_, .f32⟩ : BufTy).Contents (Elt F) → (⟨S_, .f32⟩ : BufTy).Contents (Elt F)),
    unary main_v50 main_v51 (broadcastInDim S2048x8192 ![] bcast_S_S2048x8192 : (⟨S_, .f32⟩ : BufTy).Contents (Elt F) → (⟨S2048x8192, .f32⟩ : BufTy).Contents (Elt F)),
    binary main_arg3 main_v51 main_v52 (mulf : (⟨S2048x8192, .f32⟩ : BufTy).Contents (Elt F) → (⟨S2048x8192, .f32⟩ : BufTy).Contents (Elt F) → (⟨S2048x8192, .f32⟩ : BufTy).Contents (Elt F)),
    unary main_v52 main_v53 (Host.roundeven : (⟨S2048x8192, .f32⟩ : BufTy).Contents (Elt F) → (⟨S2048x8192, .f32⟩ : BufTy).Contents (Elt F)),
    nullary main_cst_19 (constant S_ .f32 0xBF800000#32),
    nullary main_cst_20 (constant S_ .f32 0x3F800000#32),
    unary main_cst_19 main_call12_v0 (id : (⟨S_, .f32⟩ : BufTy).Contents (Elt F) → (⟨S_, .f32⟩ : BufTy).Contents (Elt F)),
    unary main_call12_v0 main_call12_v1 (broadcastInDim S2048x8192 ![] bcast_S_S2048x8192 : (⟨S_, .f32⟩ : BufTy).Contents (Elt F) → (⟨S2048x8192, .f32⟩ : BufTy).Contents (Elt F)),
    binary main_call12_v1 main_v53 main_call12_v2 (maximumf : (⟨S2048x8192, .f32⟩ : BufTy).Contents (Elt F) → (⟨S2048x8192, .f32⟩ : BufTy).Contents (Elt F) → (⟨S2048x8192, .f32⟩ : BufTy).Contents (Elt F)),
    unary main_cst_20 main_call12_v3 (id : (⟨S_, .f32⟩ : BufTy).Contents (Elt F) → (⟨S_, .f32⟩ : BufTy).Contents (Elt F)),
    unary main_call12_v3 main_call12_v4 (broadcastInDim S2048x8192 ![] bcast_S_S2048x8192 : (⟨S_, .f32⟩ : BufTy).Contents (Elt F) → (⟨S2048x8192, .f32⟩ : BufTy).Contents (Elt F)),
    binary main_call12_v4 main_call12_v2 main_v54 (minimumf : (⟨S2048x8192, .f32⟩ : BufTy).Contents (Elt F) → (⟨S2048x8192, .f32⟩ : BufTy).Contents (Elt F) → (⟨S2048x8192, .f32⟩ : BufTy).Contents (Elt F)),
    unary main_v50 main_v55 (broadcastInDim S2048x8192 ![] bcast_S_S2048x8192 : (⟨S_, .f32⟩ : BufTy).Contents (Elt F) → (⟨S2048x8192, .f32⟩ : BufTy).Contents (Elt F)),
    binary main_v54 main_v55 main_v56 (Host.divf : (⟨S2048x8192, .f32⟩ : BufTy).Contents (Elt F) → (⟨S2048x8192, .f32⟩ : BufTy).Contents (Elt F) → (⟨S2048x8192, .f32⟩ : BufTy).Contents (Elt F)),
    binary main_v56 main_arg3 main_v57 (subf : (⟨S2048x8192, .f32⟩ : BufTy).Contents (Elt F) → (⟨S2048x8192, .f32⟩ : BufTy).Contents (Elt F) → (⟨S2048x8192, .f32⟩ : BufTy).Contents (Elt F)),
    binary main_arg3 main_v57 main_v58 (addf : (⟨S2048x8192, .f32⟩ : BufTy).Contents (Elt F) → (⟨S2048x8192, .f32⟩ : BufTy).Contents (Elt F) → (⟨S2048x8192, .f32⟩ : BufTy).Contents (Elt F)) ]
abbrev opsF : List (HloOp τ sig (Elt F)) :=
  [ binary main_v45 main_v58 main_v59 ((fun l r => Host.dotGeneral dot_S2x4096x8192_S2048x8192_S2x4096x2048_2_1_01_0_n_n none l r) : (⟨S2x4096x8192, .f32⟩ : BufTy).Contents (Elt F) → (⟨S2048x8192, .f32⟩ : BufTy).Contents (Elt F) → (⟨S2x4096x2048, .f32⟩ : BufTy).Contents (Elt F)),
    unary main_arg4 main_v60 (broadcastInDim S1x1x2048 ![2] bcast_S2048_S1x1x2048_2 : (⟨S2048, .f32⟩ : BufTy).Contents (Elt F) → (⟨S1x1x2048, .f32⟩ : BufTy).Contents (Elt F)),
    unary main_v60 main_v61 (broadcastInDim S2x4096x2048 ![0, 1, 2] bcast_S1x1x2048_S2x4096x2048_0_1_2 : (⟨S1x1x2048, .f32⟩ : BufTy).Contents (Elt F) → (⟨S2x4096x2048, .f32⟩ : BufTy).Contents (Elt F)),
    binary main_v59 main_v61 main_v62 (addf : (⟨S2x4096x2048, .f32⟩ : BufTy).Contents (Elt F) → (⟨S2x4096x2048, .f32⟩ : BufTy).Contents (Elt F) → (⟨S2x4096x2048, .f32⟩ : BufTy).Contents (Elt F)) ]

/-- The program's operation list is the six stretches one after the other. (An operation inside a called function is
    the same operation on the same buffers as when it is written directly: moving a value to a buffer's own type and
    back is the identity.) -/
theorem ops_split : (ops : List (HloOp τ sig (Elt F))) = opsA ++ (opsB ++ (opsC ++ (opsD ++ (opsE ++ opsF)))) := rfl

/-! ## What each stretch leaves alone -/

theorem keepA_arg1 (W : Valuation τ sig (Elt F)) : after opsA W (Proc.devRef .tc main_arg1) = W (Proc.devRef .tc main_arg1) := by
  after_results_simp
theorem keepA_arg2 (W : Valuation τ sig (Elt F)) : after opsA W (Proc.devRef .tc main_arg2) = W (Proc.devRef .tc main_arg2) := by
  after_results_simp
theorem keepA_arg3 (W : Valuation τ sig (Elt F)) : after opsA W (Proc.devRef .tc main_arg3) = W (Proc.devRef .tc main_arg3) := by
  after_results_simp
theorem keepA_arg4 (W : Valuation τ sig (Elt F)) : after opsA W (Proc.devRef .tc main_arg4) = W (Proc.devRef .tc main_arg4) := by
  after_results_simp
theorem keepB_v13 (W : Valuation τ sig (Elt F)) : after opsB W (Proc.devRef .tc main_v13) = W (Proc.devRef .tc main_v13) := by
  after_results_simp
theorem keepB_arg2 (W : Valuation τ sig (Elt F)) : after opsB W (Proc.devRef .tc main_arg2) = W (Proc.devRef .tc main_arg2) := by
  after_results_simp
theorem keepB_arg3 (W : Valuation τ sig (Elt F)) : after opsB W (Proc.devRef .tc main_arg3) = W (Proc.devRef .tc main_arg3) := by
  after_results_simp
theorem keepB_arg4 (W : Valuation τ sig (Elt F)) : after opsB W (Proc.devRef .tc main_arg4) = W (Proc.devRef .tc main_arg4) := by
  after_results_simp
theorem keepC_arg3 (W : Valuation τ sig (Elt F)) : after opsC W (Proc.devRef .tc main_arg3) = W (Proc.devRef .tc main_arg3) := by
  after_results_simp
theorem keepC_arg4 (W : Valuation τ sig (Elt F)) : after opsC W (Proc.devRef .tc main_arg4) = W (Proc.devRef .tc main_arg4) := by
  after_results_simp
theorem keepD_arg3 (W : Valuation τ sig (Elt F)) : after opsD W (Proc.devRef .tc main_arg3) = W (Proc.devRef .tc main_arg3) := by
  after_results_simp
theorem keepD_arg4 (W : Valuation τ sig (Elt F)) : after opsD W (Proc.devRef .tc main_arg4) = W (Proc.devRef .tc main_arg4) := by
  after_results_simp
theorem keepE_v45 (W : Valuation τ sig (Elt F)) : after opsE W (Proc.devRef .tc main_v45) = W (Proc.devRef .tc main_v45) := by
  after_results_simp
theorem keepE_arg4 (W : Valuation τ sig (Elt F)) : after opsE W (Proc.devRef .tc main_arg4) = W (Proc.devRef .tc main_arg4) := by
  after_results_simp

/-! ## What each stretch computes -/

theorem stretchA (W : Valuation τ sig (Elt F)) :
    after opsA W (Proc.devRef .tc main_v13) = val_main_v13 (F := F) (W (Proc.devRef .tc main_arg0)) := by
  after_results_simp <;> rfl

theorem stretchB (W : Valuation τ sig (Elt F)) :
    after opsB W (Proc.devRef .tc main_v26) = val_main_v26 (F := F) (W (Proc.devRef .tc main_arg1)) := by
  after_results_simp <;> rfl

theorem stretchC (W : Valuation τ sig (Elt F)) :
    after opsC W (Proc.devRef .tc main_v31)
      = maximumf (addf (Host.dotGeneral dot_S2x4096x2048_S8192x2048_S2x4096x8192_2_1_01_0_n_n none (W (Proc.devRef .tc main_v13)) (W (Proc.devRef .tc main_v26)))
          (broadcastInDim S2x4096x8192 ![0, 1, 2] bcast_S1x1x8192_S2x4096x8192_0_1_2 (broadcastInDim S1x1x8192 ![2] bcast_S8192_S1x1x8192_2 (W (Proc.devRef .tc main_arg2)))))
          (broadcastInDim S2x4096x8192 ![] bcast_S_S2x4096x8192 (constant S_ .f32 0x00000000#32)) := by
  after_results_simp <;> rfl

theorem stretchD (W : Valuation τ sig (Elt F)) (x0 x1 x2) (h : W (Proc.devRef .tc main_v31) = val_main_v31 (F := F) x0 x1 x2) :
    after opsD W (Proc.devRef .tc main_v45) = val_main_v45 (F := F) x0 x1 x2 := by
  after_results_simp
  rw [h]
  rfl

theorem stretchE (W : Valuation τ sig (Elt F)) :
    after opsE W (Proc.devRef .tc main_v58) = val_main_v58 (F := F) (W (Proc.devRef .tc main_arg3)) := by
  after_results_simp <;> rfl

theorem stretchF (W : Valuation τ sig (Elt F)) :
    after opsF W (Proc.devRef .tc main_v62)
      = addf (Host.dotGeneral dot_S2x4096x8192_S2048x8192_S2x4096x2048_2_1_01_0_n_n none (W (Proc.devRef .tc main_v45)) (W (Proc.devRef .tc main_v58)))
          (broadcastInDim S2x4096x2048 ![0, 1, 2] bcast_S1x1x2048_S2x4096x2048_0_1_2 (broadcastInDim S1x1x2048 ![2] bcast_S2048_S1x1x2048_2 (W (Proc.devRef .tc main_arg4)))) := by
  after_results_simp <;> rfl

/-! ## The result -/

/-- The fold of the whole list at the result buffer is the last stage of the program, as a function of the arguments. -/
theorem ref_result (V : Valuation τ sig (Elt F)) :
    after ops V (Proc.devRef .tc main_v62)
      = val_main_v62 (F := F) (V (Proc.devRef .tc main_arg0)) (V (Proc.devRef .tc main_arg1)) (V (Proc.devRef .tc main_arg2)) (V (Proc.devRef .tc main_arg3)) (V (Proc.devRef .tc main_arg4)) := by
  rw [ops_split, after_append', after_append', after_append', after_append', after_append']
  generalize hA : after opsA V = VA
  generalize hB : after opsB VA = VB
  generalize hC : after opsC VB = VC
  generalize hD : after opsD VC = VD
  generalize hE : after opsE VD = VE
  have a13 : VA (Proc.devRef .tc main_v13) = val_main_v13 (F := F) (V (Proc.devRef .tc main_arg0)) := by rw [← hA]; exact stretchA V
  have a1 : VA (Proc.devRef .tc main_arg1) = V (Proc.devRef .tc main_arg1) := by rw [← hA]; exact keepA_arg1 V
  have a2 : VA (Proc.devRef .tc main_arg2) = V (Proc.devRef .tc main_arg2) := by rw [← hA]; exact keepA_arg2 V
  have a3 : VA (Proc.devRef .tc main_arg3) = V (Proc.devRef .tc main_arg3) := by rw [← hA]; exact keepA_arg3 V
  have a4 : VA (Proc.devRef .tc main_arg4) = V (Proc.devRef .tc main_arg4) := by rw [← hA]; exact keepA_arg4 V
  have b26 : VB (Proc.devRef .tc main_v26) = val_main_v26 (F := F) (V (Proc.devRef .tc main_arg1)) := by rw [← hB, stretchB, a1]
  have b13 : VB (Proc.devRef .tc main_v13) = val_main_v13 (F := F) (V (Proc.devRef .tc main_arg0)) := by rw [← hB, keepB_v13, a13]
  have b2 : VB (Proc.devRef .tc main_arg2) = V (Proc.devRef .tc main_arg2) := by rw [← hB, keepB_arg2, a2]
  have b3 : VB (Proc.devRef .tc main_arg3) = V (Proc.devRef .tc main_arg3) := by rw [← hB, keepB_arg3, a3]
  have b4 : VB (Proc.devRef .tc main_arg4) = V (Proc.devRef .tc main_arg4) := by rw [← hB, keepB_arg4, a4]
  have c31 : VC (Proc.devRef .tc main_v31) = val_main_v31 (F := F) (V (Proc.devRef .tc main_arg0)) (V (Proc.devRef .tc main_arg1)) (V (Proc.devRef .tc main_arg2)) := by
    rw [← hC, stretchC, b13, b26, b2]; rfl
  have c3 : VC (Proc.devRef .tc main_arg3) = V (Proc.devRef .tc main_arg3) := by rw [← hC, keepC_arg3, b3]
  have c4 : VC (Proc.devRef .tc main_arg4) = V (Proc.devRef .tc main_arg4) := by rw [← hC, keepC_arg4, b4]
  have d45 : VD (Proc.devRef .tc main_v45) = val_main_v45 (F := F) (V (Proc.devRef .tc main_arg0)) (V (Proc.devRef .tc main_arg1)) (V (Proc.devRef .tc main_arg2)) := by
    rw [← hD]; exact stretchD VC _ _ _ c31
  have d3 : VD (Proc.devRef .tc main_arg3) = V (Proc.devRef .tc main_arg3) := by rw [← hD, keepD_arg3, c3]
  have d4 : VD (Proc.devRef .tc main_arg4) = V (Proc.devRef .tc main_arg4) := by rw [← hD, keepD_arg4, c4]
  have e58 : VE (Proc.devRef .tc main_v58) = val_main_v58 (F := F) (V (Proc.devRef .tc main_arg3)) := by rw [← hE, stretchE, d3]
  have e45 : VE (Proc.devRef .tc main_v45) = val_main_v45 (F := F) (V (Proc.devRef .tc main_arg0)) (V (Proc.devRef .tc main_arg1)) (V (Proc.devRef .tc main_arg2)) := by rw [← hE, keepE_v45, d45]
  have e4 : VE (Proc.devRef .tc main_arg4) = V (Proc.devRef .tc main_arg4) := by rw [← hE, keepE_arg4, d4]
  rw [stretchF, e45, e58, e4]
  rfl

variable (m : (ℓ : Loc nD τ sig) → Buf (Elt F) ℓ) (ρ : Dev nD → PrngReg)

/-- Every weakly fair execution of the reference terminates without fault, its result at the last stage of its
    arguments and its arguments unchanged. -/
theorem ref_run : θ_run defs (onTc (τ := τ) (main (F := F))) ⟨m, fun _ => 0, ρ⟩ fun r => ∀ c : Dev nD,
      r.2.mem ((c.tc : Thread nD τ).loc main_v62)
        = val_main_v62 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (ref_result (launchContents m c)), (h c).2⟩) (Cert.ReferenceIdeal.ValueP.run (F := F) m ρ)

end Cert.BitMlp

end
-- ==== Proof.KernelRun.lean ====
/-
  The run of the whole program, with its result named.

  The program is a sequence of host stretches and two kernel regions. Its buffers' contents at every boundary are a
  fold from the launch memory: each host stretch applies its operations, each region leaves its arrays at what its
  write-backs produce. Every weakly fair execution terminates without fault in a state whose unscoped buffers hold the
  last boundary's contents; read at the result buffer this names the result, and read at the arguments it gives them
  back unchanged.
-/
import proofs.«126453_j69544110457391_2_alg».proof.Proof.Gen.KernelIdeal.Frame

set_option maxRecDepth 16384

noncomputable section

namespace Cert.BitMlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the argument arrays as launched. -/
theorem run_value : θ_run defs (onTc (τ := τ) (main (F := F))) ⟨m, fun _ => 0, ρ⟩ (fun r => ∀ c : Dev nD,
      r.2.mem ((c.tc : Thread nD τ).loc main_v29) = W16 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v29 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c)⟩)

end Cert.BitMlp

end
-- ==== Proof.Spec.lean ====
/-
  The quantized two-layer perceptron, row by row, on the extended reals.

  A row of activations is quantized to 8 bits by its own largest magnitude: with A the larger of a small
  floor and the row's largest absolute value, and s = 127 / A, an entry x becomes
  clip (round (x * s), -128, 127) / s (rounding to nearest, ties to even). A weight matrix is quantized
  to three levels by one scalar for the whole matrix: with M the larger of the floor and the mean absolute
  value (the sum of all absolute values over 2^24 entries), and s = 1 / M, a weight w becomes
  clip (round (w * s), -1, 1) / s.

  The hidden row of a token is the rectified affine image of its quantized row under the quantized first
  matrix, and the output row is the affine image of the quantized hidden row under the quantized second
  matrix. Everything here is stated over plain functions of finite indices; no program is mentioned.
-/
import Idealize.ShloMosaic.PureOps.Ideal
import Idealize.ShloMosaic.PureOps.Ideal.Laws

noncomputable section

namespace Cert.BitMlp

open Idealize.ShloMosaic

/-- Rounding to the nearest integer, ties to even; the infinities are fixed. -/
def rnd (z : EReal) : EReal := Ideal.liftRound Ideal.roundHalfEven z

/-- clip (round (x * s), lo, hi) / s. -/
def quant (lo hi s x : EReal) : EReal := Ideal.div (min hi (max lo (rnd (x * s)))) s

/-- minus infinity, the start of a running maximum -/
def negInf : EReal := Ideal.ofBits .f32 0xFF800000#32
/-- the floor 1e-5 (as the single-precision number nearest to it) -/
def eps : EReal := Ideal.ofBits .f32 0x3727C5AC#32
def c127 : EReal := Ideal.ofBits .f32 0x42FE0000#32
def cm128 : EReal := Ideal.ofBits .f32 0xC3000000#32
def c1 : EReal := Ideal.ofBits .f32 0x3F800000#32
def cm1 : EReal := Ideal.ofBits .f32 0xBF800000#32
def c0 : EReal := Ideal.ofBits .f32 0x00000000#32
/-- 2^24 = 8192 * 2048, the number of entries of either weight matrix -/
def c2p24 : EReal := Ideal.ofBits .f32 0x4B800000#32

/-- The largest absolute value of a row (the running maximum starts at minus infinity). -/
def absMax {n : Nat} (row : Fin n → EReal) : EReal :=
  (Finset.univ : Finset (Fin n)).fold max negInf (fun k => max (row k) (-(row k)))

/-- The scale of a row: 127 over the larger of the floor and the row's largest magnitude. -/
def actScale {n : Nat} (row : Fin n → EReal) : EReal := Ideal.div c127 (max eps (absMax row))

/-- Entry k of the 8-bit quantization of a row. -/
def actQ {n : Nat} (row : Fin n → EReal) (k : Fin n) : EReal := quant cm128 c127 (actScale row) (row k)

/-- Zero plus the sum of all absolute values of a family. -/
def absSum {ι : Type} [Fintype ι] (w : ι → EReal) : EReal := c0 + ∑ i, max (w i) (-(w i))

/-- The scale of a weight matrix from the sum of its absolute values: one over the larger of the floor and the mean. -/
def wScale (tot : EReal) : EReal := Ideal.div c1 (max eps (Ideal.div tot c2p24))

/-- The three-level quantization of one weight. -/
def wQ (tot w : EReal) : EReal := quant cm1 c1 (wScale tot) w

/-- The hidden row of a token: entry j is max (sum_k q(x)_k * W1[j,k] + b1[j], 0). -/
def hiddenRow (xrow : Fin 2048 → EReal) (W1 : Fin 8192 → Fin 2048 → EReal) (b1 : Fin 8192 → EReal) (j : Fin 8192) : EReal :=
  max ((∑ k : Fin 2048, actQ xrow k * W1 j k) + b1 j) c0

/-- The output row of a token: entry d is sum_k q(h)_k * W2[d,k] + b2[d], h the hidden row. -/
def outRow (xrow : Fin 2048 → EReal) (W1 : Fin 8192 → Fin 2048 → EReal) (b1 : Fin 8192 → EReal)
    (W2 : Fin 2048 → Fin 8192 → EReal) (b2 : Fin 2048 → EReal) (d : Fin 2048) : EReal :=
  (∑ k : Fin 8192, actQ (hiddenRow xrow W1 b1) k * W2 d k) + b2 d

end Cert.BitMlp

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Quant.lean ====
/-
  A block of rows quantized by each row's own largest magnitude, read at an entry.

  For an array v of shape [a, b]: the row maxima of |v| form a vector of length a, recast to a column [a, 1];
  the scale column is 127 over the larger of the floor and that column; the scale is repeated along each row,
  and every entry becomes clip (round (v * scale), -128, 127) / scale. Entry (p, k) of the result depends on
  row p only: it is the specification's quantization of that row at k.
-/
import Idealize.ShloMosaic.Lib.Pipeline.Value
import Idealize.ShloMosaic.Lib.ValueIdx
import Idealize.ShloMosaic.PureOps.Ideal.Laws
import proofs.«126453_j69544110457391_2_alg».proof.Proof.Spec
import proofs.«126453_j69544110457391_2_alg».proof.Proof.LibColumn

noncomputable section

namespace Cert.BitMlp

open Idealize.ShloMosaic Idealize.ShloMosaic.ValueIdx Cert.Lib.Column

/-- Reducing the second axis of [a, b]: the index (p) with the coordinate k inserted is (p, k). -/
theorem lift_row {a b : ℕ} (h : (⟨2, ![a, b]⟩ : Shape).Reduces [1] ⟨1, ![a]⟩) (p : Fin a) (k : Fin b) :
    h.lift (ix1 p) k = ix2 p k := by
  funext d
  apply Fin.ext
  match d with
  | ⟨0, _⟩ => rfl
  | ⟨1, _⟩ => rfl

/-- The running maximum of |v| along a row, from minus infinity, is the row's largest magnitude. -/
theorem rowAbsMax_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ (absf v) 0xFF800000#32 h hφ hacc (ix1 p) = absMax (fun k => v (ix2 p k)) := by
  refine (Ideal.multiReduction_maximumf_single (absf v) _ h hφ hacc (ix1 p)).trans ?_
  unfold absMax negInf
  show Finset.fold max _ _ (Finset.univ : Finset (Fin b)) = Finset.fold max _ _ (Finset.univ : Finset (Fin b))
  congr 1
  funext k
  exact (congrArg (fun i => FloatOps.absf (v i)) (lift_row h p k)).trans (Ideal.absf_def _)

/-- The scale column at row p is the specification's scale of row p. -/
theorem rowScale_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hsc : (⟨1, ![a]⟩ : Shape).ShapeCasts ⟨2, ![a, 1]⟩) (p : Fin a) (u : Fin 1) :
    divf (broadcast ⟨2, ![a, 1]⟩ (Scalar.ofBits (F := Ideal) .f32 0x42FE0000#32))
        (maximumf (broadcast ⟨2, ![a, 1]⟩ (Scalar.ofBits (F := Ideal) .f32 0x3727C5AC#32))
          (shapeCast ⟨2, ![a, 1]⟩ (multiReduction .maximumf [1] ⟨1, ![a]⟩ (absf v) 0xFF800000#32 h hφ hacc) hsc)) (ix2 p u)
      = actScale (fun k => v (ix2 p k)) := by
  rw [divf_apply, maximumf_apply, broadcast_apply, broadcast_apply, shapeCast_a_a1_apply, rowAbsMax_apply]
  rfl

/-- An entry scaled, rounded, clipped to [-128, 127] and unscaled by a column of scales repeated along rows. -/
theorem quantEntry_apply {a b : ℕ} (v : FVec Ideal ⟨2, ![a, b]⟩ .f32) (sc : FVec Ideal ⟨2, ![a, 1]⟩ .f32)
    (hbc : (⟨2, ![a, 1]⟩ : Shape).Broadcasts ⟨2, ![a, b]⟩) (p : Fin a) (k : Fin b) (s : EReal)
    (hs : sc (ix2 p (0 : Fin 1)) = s) :
    divf (minimumf (broadcast ⟨2, ![a, b]⟩ (Scalar.ofBits (F := Ideal) .f32 0x42FE0000#32))
          (maximumf (broadcast ⟨2, ![a, b]⟩ (Scalar.ofBits (F := Ideal) .f32 0xC3000000#32))
            (roundeven (mulf v (broadcastTo ⟨2, ![a, b]⟩ sc hbc)))))
        (broadcastTo ⟨2, ![a, b]⟩ sc hbc) (ix2 p k)
      = quant cm128 c127 s (v (ix2 p k)) := by
  rw [divf_apply, minimumf_apply, maximumf_apply, broadcast_apply, broadcast_apply]
  show Ideal.div (min _ (max _ (FloatOps.roundeven (mulf v (broadcastTo ⟨2, ![a, b]⟩ sc hbc) (ix2 p k))))) _ = _
  rw [mulf_apply, broadcastTo_a1_ab_apply, hs]
  rfl

end Cert.BitMlp

end
-- ==== Proof.Pay0.lean ====
/-
  The body of the first layer on one block, read at an entry.

  The body takes a block of 512 token rows (each of length 2048), a block of 512 weight rows (each of length 2048) and
  the matching 512 bias entries. It quantizes every token row by its own largest magnitude, multiplies the quantized
  block with the transposed weight block and adds the bias, and keeps the positive part. Entry (p, q) of the result is therefore
  max (sum_k q(row p)_k * w[q, k] + bias[q], 0).
-/
import proofs.«126453_j69544110457391_2_alg».proof.Proof.Gen.KernelIdeal.Skeleton
import proofs.«126453_j69544110457391_2_alg».proof.Proof.Quant
import Idealize.ShloMosaic.Lib.ValueLayout

noncomputable section

namespace Cert.BitMlp

open Idealize.ShloMosaic Idealize.ShloMosaic.ValueIdx Cert.Lib.Column Cert.KernelIdeal Cert.KernelIdeal.Gen

/-- Where the product's dimension record sends an output index and a contraction index: the left factor is read at
    (row of the output, contraction), the right factor at (contraction, column of the output). -/
theorem dotL0_0 (i : S512x512.Idx) (q : dot_S512x2048_S2048x512_S512x512_1_0_0_1_n_n.contr.Idx) : (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide),
    dif_pos (show (0 : Fin S512x2048.rank) ∈ dot_S512x2048_S2048x512_S512x512_1_0_0_1_n_n.lhsNonContracting by decide)]
  rfl
theorem dotL0_1 (i : S512x512.Idx) (q : dot_S512x2048_S2048x512_S512x512_1_0_0_1_n_n.contr.Idx) : (dot_S512x2048_S2048x512_S512x512_1_0_0_1_n_n.lhsIdx i q 1).val = (q ⟨0, by decide⟩).val :=
  dot_S512x2048_S2048x512_S512x512_1_0_0_1_n_n.lhsIdx_val_of_single rfl i q
theorem dotR0_0 (i : S512x512.Idx) (q : dot_S512x2048_S2048x512_S512x512_1_0_0_1_n_n.contr.Idx) : (dot_S512x2048_S2048x512_S512x512_1_0_0_1_n_n.rhsIdx i q 0).val = (q ⟨0, by decide⟩).val :=
  dot_S512x2048_S2048x512_S512x512_1_0_0_1_n_n.rhsIdx_val_of_single rfl i q
theorem dotR0_1 (i : S512x512.Idx) (q : dot_S512x2048_S2048x512_S512x512_1_0_0_1_n_n.contr.Idx) : (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide),
    dif_pos (show (1 : Fin S2048x512.rank) ∈ dot_S512x2048_S2048x512_S512x512_1_0_0_1_n_n.rhsNonContracting by decide)]
  rfl

/-- The block product with the second factor transposed, into a zero accumulator: entry (p, q) is the sum over k of
    A[p, k] * B[q, k]. -/
theorem matmulT0_apply (A : FVec Ideal S512x2048 .bf16) (B : FVec Ideal S512x2048 .bf16) (p : Fin 512) (q : Fin 512) :
    matmul dot_S512x2048_S2048x512_S512x512_1_0_0_1_n_n none A
        (transpose S2048x512 [1, 0] B Facts₀.transposes_S512x2048_p1_0_S2048x512) (constant S512x512 .f32 0x00000000#32) (ix2 p q)
      = ∑ k : Fin 2048, A (ix2 p k) * B (ix2 q k) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k :=
    funext fun a => Fin.ext (by
      match a with
      | ⟨0, _⟩ => exact dotL0_0 _ _
      | ⟨1, _⟩ => exact (dotL0_1 _ _).trans hk)
  have er : dot_S512x2048_S2048x512_S512x512_1_0_0_1_n_n.rhsIdx (ix2 p q) ((contrEquiv1 dot_S512x2048_S2048x512_S512x512_1_0_0_1_n_n 2048 rfl rfl).symm k) = ix2 k q :=
    funext fun a => Fin.ext (by
      match a with
      | ⟨0, _⟩ => exact (dotR0_0 _ _).trans hk
      | ⟨1, _⟩ => exact dotR0_1 _ _)
  rw [el, er, transpose_ix2_apply]

/-- The body's stored value at entry (p, q) of its block. -/
theorem k0_pay1_apply (x0 : Vec Ideal S512x2048 .f32) (x1 : Vec Ideal S512x2048 .bf16) (x2 : Vec Ideal S1x512 .f32)
    (p : Fin 512) (q : Fin 512) :
    k0_pay1 (F := Ideal) x0 x1 x2 (ix2 p q)
      = max ((∑ k : Fin 2048, actQ (fun k => x0 (ix2 p k)) k * x1 (ix2 q k)) + x2 (ix2 (0 : Fin 1) q)) c0 := by
  unfold k0_pay1
  simp only [shapeCast_self]
  rw [truncf_apply, maximumf_apply, addf_apply, broadcast_apply, broadcastTo_1b_ab_apply, matmulT0_apply]
  refine congrArg (fun z => max (z + x2 (ix2 (0 : Fin 1) q)) c0) ?_
  refine Finset.sum_congr rfl fun k _ => ?_
  refine congrArg (fun z => z * x1 (ix2 q k)) ?_
  rw [truncf_apply]
  exact quantEntry_apply _ _ _ p k _ (rowScale_apply _ _ _ _ _ p 0)

end Cert.BitMlp

end
-- ==== Proof.Blocks0.lean ====
/-
  From blocks to the array, for the first layer.

  The grid is 16 by 16. At the point (i, j) the body reads rows i*512 … of the token array (all 2048 columns), rows
  j*512 … of the weight array (all 2048 columns) and entries j*512 … of the bias row, and writes the 512 by 512 block (i, j) of
  the result. Entry (p, q) of that block is the layer's value at row i*512 + p and column j*512 + q, which depends on
  the token row and the weight row only; the blocks tile the result array, so after the last point the array holds
  the layer's value everywhere.
-/
import proofs.«126453_j69544110457391_2_alg».proof.Proof.Gen.KernelIdeal.Frame
import proofs.«126453_j69544110457391_2_alg».proof.Proof.Pay0
import Idealize.ShloMosaic.Lib.Pipeline.Value

set_option maxRecDepth 16384

noncomputable section

namespace Cert.BitMlp

open Idealize.ShloMosaic Idealize.ShloMosaic.ValueIdx Idealize.ShloMosaic.TcCoe Idealize.SL.Sem Cert.KernelIdeal Cert.KernelIdeal.Gen
open Idealize.ShloMosaic.Pipeline (Dat)

/-- The layer's value at row r and column j, from the token array X, the (quantized) weight array W and the bias row B. -/
def layer0 (X : S8192x2048.Idx → EReal) (W : S8192x2048.Idx → EReal) (B : S1x8192.Idx → EReal) (r : Fin 8192) (j : Fin 8192) : EReal :=
  max ((∑ k : Fin 2048, actQ (fun k => X (ix2 r k)) k * W (ix2 j k)) + B (ix2 (0 : Fin 1) j)) c0

variable (V : (c : Dev nD) → (b : Ref sig .tc) → Buf (Elt Ideal) ((c : Thread nD τ).loc b))

/-- The result array of the layer as one function of the arrays the region is entered with. -/
def arr0 (c : Dev nD) : S8192x8192.Idx → EReal := fun i =>
  layer0 (V c main_v0) (V c main_v14) (V c main_v1) ⟨(i 0).val, (i 0).isLt⟩ ⟨(i 1).val, (i 1).isLt⟩

theorem zero_offsets0 : (![0, 0] : Fin 2 → Nat) = fun _ => 0 := funext fun a => by fin_cases a <;> rfl

/-- The index maps, decided over the grid: the token block follows the result block's row index, the weight and bias
    blocks its column index, and every other block index is zero. -/
theorem idx_facts0 : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 15 :=
  (by decide +kernel : ∀ t : Fin grid0.N, _)

/-- Every block of the result is some point's. -/
theorem idx_onto0 : ∀ (q0 : Fin 16) (q1 : Fin 16), ∃ t : Fin cfg0.N, win0_3.index t = ![q0.val, q1.val] :=
  (by decide +kernel : ∀ (q0 : Fin 16) (q1 : Fin 16), ∃ t : Fin grid0.N, win0_3.index t = ![q0.val, q1.val])

/-- The token block at a point, read at (p, k): the token array at row (row block index)*512 + p. -/
theorem tokBlock0_apply (c : Dev nD) (t : Fin cfg0.N) (p : Fin 512) (k : Fin 2048) (r : Fin 8192)
    (hr : r.val = win0_3.index t (0 : Fin 2) * 512 + p.val) :
    iblk0 V c 0 t (ix2 p k) = V c main_v0 (ix2 r k) := by
  obtain ⟨e0, e1, -⟩ := idx_facts0 t
  show V c main_v0 (((cfg0.win 0).blk t).view.emb (ix2 p k)) = V c main_v0 (ix2 r k)
  have h : ((cfg0.win 0).blk t).view.emb (ix2 p k) = (ix2 r k) := funext fun a => Fin.ext (by
    match a with
    | ⟨0, _⟩ => show win0_0.index t (0 : Fin 2) * 512 + 1 * p.val = r.val; omega
    | ⟨1, _⟩ => show win0_0.index t (1 : Fin 2) * 2048 + 1 * k.val = k.val; omega)
  rw [h]

/-- The weight block at a point, read at (q, k): the weight array at row (column block index)*512 + q. -/
theorem wBlock0_apply (c : Dev nD) (t : Fin cfg0.N) (q : Fin 512) (k : Fin 2048) (j : Fin 8192)
    (hj : j.val = win0_3.index t (1 : Fin 2) * 512 + q.val) :
    iblk0 V c 1 t (ix2 q k) = V c main_v14 (ix2 j k) := by
  obtain ⟨-, -, e2, e3, -⟩ := idx_facts0 t
  show V c main_v14 (((cfg0.win 1).blk t).view.emb (ix2 q k)) = V c main_v14 (ix2 j k)
  have h : ((cfg0.win 1).blk t).view.emb (ix2 q k) = (ix2 j k) := funext fun a => Fin.ext (by
    match a with
    | ⟨0, _⟩ => show win0_1.index t (0 : Fin 2) * 512 + 1 * q.val = j.val; omega
    | ⟨1, _⟩ => show win0_1.index t (1 : Fin 2) * 2048 + 1 * k.val = k.val; omega)
  rw [h]

/-- The bias block at a point, read at (0, q): the bias row at column (column block index)*512 + q. -/
theorem bBlock0_apply (c : Dev nD) (t : Fin cfg0.N) (q : Fin 512) (j : Fin 8192)
    (hj : j.val = win0_3.index t (1 : Fin 2) * 512 + q.val) :
    iblk0 V c 2 t (ix2 (0 : Fin 1) q) = V c main_v1 (ix2 (0 : Fin 1) j) := by
  obtain ⟨-, -, -, -, e4, e5, -⟩ := idx_facts0 t
  show V c main_v1 (((cfg0.win 2).blk t).view.emb (ix2 (0 : Fin 1) q)) = V c main_v1 (ix2 (0 : Fin 1) j)
  have h : ((cfg0.win 2).blk t).view.emb (ix2 (0 : Fin 1) q) = (ix2 (0 : Fin 1) j) := funext fun a => Fin.ext (by
    match a with
    | ⟨0, _⟩ => show win0_2.index t (0 : Fin 2) * 1 + 1 * 0 = 0; omega
    | ⟨1, _⟩ => show win0_2.index t (1 : Fin 2) * 512 + 1 * q.val = j.val; omega)
  rw [h]

/-- The body's result on the blocks of a point, at (p, q): the layer's value at the entry's place in the array. -/
theorem entry0 (c : Dev nD) (t : Fin cfg0.N) (p : Fin 512) (q : Fin 512) (r : Fin 8192) (j : Fin 8192)
    (hr : r.val = win0_3.index t (0 : Fin 2) * 512 + p.val) (hj : j.val = win0_3.index t (1 : Fin 2) * 512 + q.val) :
    k0_pay1 (F := Ideal) (iblk0 V c 0 t) (iblk0 V c 1 t) (iblk0 V c 2 t) (ix2 p q)
      = layer0 (V c main_v0) (V c main_v14) (V c main_v1) r j := by
  rw [k0_pay1_apply]
  unfold layer0
  rw [bBlock0_apply V c t q j hj]
  refine congrArg (fun z => max (z + V c main_v1 (ix2 (0 : Fin 1) j)) c0) ?_
  refine Finset.sum_congr rfl fun k _ => ?_
  rw [wBlock0_apply V c t q k j hj]
  refine congrArg (fun z => z * V c main_v14 (ix2 j k)) ?_
  refine congrArg (fun row => actQ row k) ?_
  funext k'
  exact tokBlock0_apply V c t p k' r hr

/-- What a point writes back is its block of the layer's array. -/
theorem flushed0_eq (c : Dev nD) (t : Fin cfg0.N) :
    (dat0 V c).flushed 3 t = ((cfg0.win 3).blk t).view.read (Elt Ideal) (arr0 V c) := by
  show (cfg0.win 3).cut (grid0.coords t) ((dat0 V c).after 3 t) = _
  rw [after0_3]
  unfold out0_3
  rw [View.canon_unit_zero zero_offsets0]
  simp only [View.ld_unit_zero (S := S512x2048) zero_offsets0, View.ld_unit_zero (S := S1x512) zero_offsets0]
  obtain ⟨-, -, -, -, -, -, e6, e7⟩ := idx_facts0 t
  funext y
  have hy0 : (y 0).val < 512 := (y 0).isLt
  have hy1 : (y 1).val < 512 := (y 1).isLt
  obtain ⟨p, q, rfl⟩ : ∃ (p : Fin 512) (q : Fin 512), y = ix2 p q :=
    ⟨⟨(y 0).val, hy0⟩, ⟨(y 1).val, hy1⟩, funext fun a => Fin.ext (by match a with | ⟨0, _⟩ => rfl | ⟨1, _⟩ => rfl)⟩
  show k0_pay1 (F := Ideal) (iblk0 V c 0 t) (iblk0 V c 1 t) (iblk0 V c 2 t) (ix2 p q)
    = arr0 V c (((cfg0.win 3).blk t).view.emb (ix2 p q))
  rw [entry0 V c t p q ⟨win0_3.index t (0 : Fin 2) * 512 + p.val, by have := p.isLt; omega⟩
    ⟨win0_3.index t (1 : Fin 2) * 512 + q.val, by have := q.isLt; omega⟩ rfl rfl]
  unfold arr0
  congr 1
  · apply Fin.ext
    show win0_3.index t (0 : Fin 2) * 512 + p.val = win0_3.index t (0 : Fin 2) * 512 + 1 * p.val
    omega
  · apply Fin.ext
    show win0_3.index t (1 : Fin 2) * 512 + q.val = win0_3.index t (1 : Fin 2) * 512 + 1 * q.val
    omega

/-- An index of the result array is in a point's block iff each coordinate is in the block's range on its axis. -/
theorem mem_blk0 (t : Fin cfg0.N) (i : S8192x8192.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v27).slice (win0_3.rect t)).set ↔ _
  rw [View.set_slice_whole, Rect.mem_set_unit]
  exact Iff.rfl

/-- After the last point the result array holds the layer's value everywhere: the blocks tile it. -/
theorem final0 (c : Dev nD) : (dat0 V c).arrAt 3 cfg0.N = arr0 V c :=
  (dat0 V c).arrAt_eq_of_cover 3 (arr0 V c) (fun t _ => flushed0_eq V c t) (fun i => by
    have hi0 : (i 0).val < 8192 := (i 0).isLt
    have hi1 : (i 1).val < 8192 := (i 1).isLt
    obtain ⟨t, ht⟩ := idx_onto0 ⟨(i 0).val / 512, by omega⟩ ⟨(i 1).val / 512, by omega⟩
    have q0 : win0_3.index t (0 : Fin 2) = (i 0).val / 512 := congrFun ht 0
    have q1 : win0_3.index t (1 : Fin 2) = (i 1).val / 512 := congrFun ht 1
    refine ⟨t, flush0_3 t, ?_⟩
    rw [mem_blk0]
    intro a
    match a with
    | ⟨0, _⟩ => show win0_3.index t (0 : Fin 2) * 512 ≤ (i 0).val ∧ (i 0).val < win0_3.index t (0 : Fin 2) * 512 + 512; omega
    | ⟨1, _⟩ => show win0_3.index t (1 : Fin 2) * 512 ≤ (i 1).val ∧ (i 1).val < win0_3.index t (1 : Fin 2) * 512 + 512; omega)

end Cert.BitMlp

end
-- ==== Proof.Pay1.lean ====
/-
  The body of the second layer on one block, read at an entry.

  The body takes a block of 256 token rows (each of length 8192), a block of 256 weight rows (each of length 8192) and
  the matching 256 bias entries. It quantizes every token row by its own largest magnitude, multiplies the quantized
  block with the transposed weight block and adds the bias. Entry (p, q) of the result is therefore
  sum_k q(row p)_k * w[q, k] + bias[q].
-/
import proofs.«126453_j69544110457391_2_alg».proof.Proof.Gen.KernelIdeal.Skeleton
import proofs.«126453_j69544110457391_2_alg».proof.Proof.Quant
import Idealize.ShloMosaic.Lib.ValueLayout

noncomputable section

namespace Cert.BitMlp

open Idealize.ShloMosaic Idealize.ShloMosaic.ValueIdx Cert.Lib.Column Cert.KernelIdeal Cert.KernelIdeal.Gen

/-- Where the product's dimension record sends an output index and a contraction index: the left factor is read at
    (row of the output, contraction), the right factor at (contraction, column of the output). -/
theorem dotL1_0 (i : S256x256.Idx) (q : dot_S256x8192_S8192x256_S256x256_1_0_0_1_n_n.contr.Idx) : (dot_S256x8192_S8192x256_S256x256_1_0_0_1_n_n.lhsIdx i q 0).val = (i 0).val := by
  unfold DotDims.lhsIdx
  rw [dif_neg (show ¬(0 : Fin S256x8192.rank) ∈ dot_S256x8192_S8192x256_S256x256_1_0_0_1_n_n.lhsBatch by decide),
    dif_pos (show (0 : Fin S256x8192.rank) ∈ dot_S256x8192_S8192x256_S256x256_1_0_0_1_n_n.lhsNonContracting by decide)]
  rfl
theorem dotL1_1 (i : S256x256.Idx) (q : dot_S256x8192_S8192x256_S256x256_1_0_0_1_n_n.contr.Idx) : (dot_S256x8192_S8192x256_S256x256_1_0_0_1_n_n.lhsIdx i q 1).val = (q ⟨0, by decide⟩).val :=
  dot_S256x8192_S8192x256_S256x256_1_0_0_1_n_n.lhsIdx_val_of_single rfl i q
theorem dotR1_0 (i : S256x256.Idx) (q : dot_S256x8192_S8192x256_S256x256_1_0_0_1_n_n.contr.Idx) : (dot_S256x8192_S8192x256_S256x256_1_0_0_1_n_n.rhsIdx i q 0).val = (q ⟨0, by decide⟩).val :=
  dot_S256x8192_S8192x256_S256x256_1_0_0_1_n_n.rhsIdx_val_of_single rfl i q
theorem dotR1_1 (i : S256x256.Idx) (q : dot_S256x8192_S8192x256_S256x256_1_0_0_1_n_n.contr.Idx) : (dot_S256x8192_S8192x256_S256x256_1_0_0_1_n_n.rhsIdx i q 1).val = (i 1).val := by
  unfold DotDims.rhsIdx
  rw [dif_neg (show ¬(1 : Fin S8192x256.rank) ∈ dot_S256x8192_S8192x256_S256x256_1_0_0_1_n_n.rhsBatch by decide),
    dif_pos (show (1 : Fin S8192x256.rank) ∈ dot_S256x8192_S8192x256_S256x256_1_0_0_1_n_n.rhsNonContracting by decide)]
  rfl

/-- The block product with the second factor transposed, into a zero accumulator: entry (p, q) is the sum over k of
    A[p, k] * B[q, k]. -/
theorem matmulT1_apply (A : FVec Ideal S256x8192 .bf16) (B : FVec Ideal S256x8192 .bf16) (p : Fin 256) (q : Fin 256) :
    matmul dot_S256x8192_S8192x256_S256x256_1_0_0_1_n_n none A
        (transpose S8192x256 [1, 0] B Facts₀.transposes_S256x8192_p1_0_S8192x256) (constant S256x256 .f32 0x00000000#32) (ix2 p q)
      = ∑ k : Fin 8192, A (ix2 p k) * B (ix2 q k) := by
  simp only [matmul]
  rw [Ideal.matmul_constant_zero_apply, ← Equiv.sum_comp (contrEquiv1 dot_S256x8192_S8192x256_S256x256_1_0_0_1_n_n 8192 rfl rfl).symm]
  refine Finset.sum_congr rfl fun k _ => ?_
  have hk := contrEquiv1_symm_val dot_S256x8192_S8192x256_S256x256_1_0_0_1_n_n 8192 rfl rfl k
  have el : dot_S256x8192_S8192x256_S256x256_1_0_0_1_n_n.lhsIdx (ix2 p q) ((contrEquiv1 dot_S256x8192_S8192x256_S256x256_1_0_0_1_n_n 8192 rfl rfl).symm k) = ix2 p k :=
    funext fun a => Fin.ext (by
      match a with
      | ⟨0, _⟩ => exact dotL1_0 _ _
      | ⟨1, _⟩ => exact (dotL1_1 _ _).trans hk)
  have er : dot_S256x8192_S8192x256_S256x256_1_0_0_1_n_n.rhsIdx (ix2 p q) ((contrEquiv1 dot_S256x8192_S8192x256_S256x256_1_0_0_1_n_n 8192 rfl rfl).symm k) = ix2 k q :=
    funext fun a => Fin.ext (by
      match a with
      | ⟨0, _⟩ => exact (dotR1_0 _ _).trans hk
      | ⟨1, _⟩ => exact dotR1_1 _ _)
  rw [el, er, transpose_ix2_apply]

/-- The body's stored value at entry (p, q) of its block. -/
theorem k1_pay1_apply (x0 : Vec Ideal S256x8192 .bf16) (x1 : Vec Ideal S256x8192 .bf16) (x2 : Vec Ideal S1x256 .f32)
    (p : Fin 256) (q : Fin 256) :
    k1_pay1 (F := Ideal) x0 x1 x2 (ix2 p q)
      = (∑ k : Fin 8192, actQ (fun k => x0 (ix2 p k)) k * x1 (ix2 q k)) + x2 (ix2 (0 : Fin 1) q) := by
  unfold k1_pay1
  simp only [shapeCast_self]
  rw [addf_apply, broadcastTo_1b_ab_apply, matmulT1_apply]
  refine congrArg (fun z => z + x2 (ix2 (0 : Fin 1) q)) ?_
  refine Finset.sum_congr rfl fun k _ => ?_
  refine congrArg (fun z => z * x1 (ix2 q k)) ?_
  rw [truncf_apply]
  exact quantEntry_apply _ _ _ p k _ (rowScale_apply _ _ _ _ _ p 0)

end Cert.BitMlp

end
-- ==== Proof.Blocks1.lean ====
/-
  From blocks to the array, for the second layer.

  The grid is 32 by 8. At the point (i, j) the body reads rows i*256 … of the token array (all 8192 columns), rows
  j*256 … of the weight array (all 8192 columns) and entries j*256 … of the bias row, and writes the 256 by 256 block (i, j) of
  the result. Entry (p, q) of that block is the layer's value at row i*256 + p and column j*256 + q, which depends on
  the token row and the weight row only; the blocks tile the result array, so after the last point the array holds
  the layer's value everywhere.
-/
import proofs.«126453_j69544110457391_2_alg».proof.Proof.Gen.KernelIdeal.Frame
import proofs.«126453_j69544110457391_2_alg».proof.Proof.Pay1
import Idealize.ShloMosaic.Lib.Pipeline.Value

set_option maxRecDepth 16384

noncomputable section

namespace Cert.BitMlp

open Idealize.ShloMosaic Idealize.ShloMosaic.ValueIdx Idealize.ShloMosaic.TcCoe Idealize.SL.Sem Cert.KernelIdeal Cert.KernelIdeal.Gen
open Idealize.ShloMosaic.Pipeline (Dat)

/-- The layer's value at row r and column j, from the token array X, the (quantized) weight array W and the bias row B. -/
def layer1 (X : S8192x8192.Idx → EReal) (W : S2048x8192.Idx → EReal) (B : S1x2048.Idx → EReal) (r : Fin 8192) (j : Fin 2048) : EReal :=
  (∑ k : Fin 8192, actQ (fun k => X (ix2 r k)) k * W (ix2 j k)) + B (ix2 (0 : Fin 1) j)

variable (V : (c : Dev nD) → (b : Ref sig .tc) → Buf (Elt Ideal) ((c : Thread nD τ).loc b))

/-- The result array of the layer as one function of the arrays the region is entered with. -/
def arr1 (c : Dev nD) : S8192x2048.Idx → EReal := fun i =>
  layer1 (V c main_v27) (V c main_v26) (V c main_v2) ⟨(i 0).val, (i 0).isLt⟩ ⟨(i 1).val, (i 1).isLt⟩

theorem zero_offsets1 : (![0, 0] : Fin 2 → Nat) = fun _ => 0 := funext fun a => by fin_cases a <;> rfl

/-- The index maps, decided over the grid: the token block follows the result block's row index, the weight and bias
    blocks its column index, and every other block index is zero. -/
theorem idx_facts1 : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 31 ∧ win1_3.index t (1 : Fin 2) ≤ 7 :=
  (by decide +kernel : ∀ t : Fin grid1.N, _)

/-- Every block of the result is some point's. -/
theorem idx_onto1 : ∀ (q0 : Fin 32) (q1 : Fin 8), ∃ t : Fin cfg1.N, win1_3.index t = ![q0.val, q1.val] :=
  (by decide +kernel : ∀ (q0 : Fin 32) (q1 : Fin 8), ∃ t : Fin grid1.N, win1_3.index t = ![q0.val, q1.val])

/-- The token block at a point, read at (p, k): the token array at row (row block index)*256 + p. -/
theorem tokBlock1_apply (c : Dev nD) (t : Fin cfg1.N) (p : Fin 256) (k : Fin 8192) (r : Fin 8192)
    (hr : r.val = win1_3.index t (0 : Fin 2) * 256 + p.val) :
    iblk1 V c 0 t (ix2 p k) = V c main_v27 (ix2 r k) := by
  obtain ⟨e0, e1, -⟩ := idx_facts1 t
  show V c main_v27 (((cfg1.win 0).blk t).view.emb (ix2 p k)) = V c main_v27 (ix2 r k)
  have h : ((cfg1.win 0).blk t).view.emb (ix2 p k) = (ix2 r k) := funext fun a => Fin.ext (by
    match a with
    | ⟨0, _⟩ => show win1_0.index t (0 : Fin 2) * 256 + 1 * p.val = r.val; omega
    | ⟨1, _⟩ => show win1_0.index t (1 : Fin 2) * 8192 + 1 * k.val = k.val; omega)
  rw [h]

/-- The weight block at a point, read at (q, k): the weight array at row (column block index)*256 + q. -/
theorem wBlock1_apply (c : Dev nD) (t : Fin cfg1.N) (q : Fin 256) (k : Fin 8192) (j : Fin 2048)
    (hj : j.val = win1_3.index t (1 : Fin 2) * 256 + q.val) :
    iblk1 V c 1 t (ix2 q k) = V c main_v26 (ix2 j k) := by
  obtain ⟨-, -, e2, e3, -⟩ := idx_facts1 t
  show V c main_v26 (((cfg1.win 1).blk t).view.emb (ix2 q k)) = V c main_v26 (ix2 j k)
  have h : ((cfg1.win 1).blk t).view.emb (ix2 q k) = (ix2 j k) := funext fun a => Fin.ext (by
    match a with
    | ⟨0, _⟩ => show win1_1.index t (0 : Fin 2) * 256 + 1 * q.val = j.val; omega
    | ⟨1, _⟩ => show win1_1.index t (1 : Fin 2) * 8192 + 1 * k.val = k.val; omega)
  rw [h]

/-- The bias block at a point, read at (0, q): the bias row at column (column block index)*256 + q. -/
theorem bBlock1_apply (c : Dev nD) (t : Fin cfg1.N) (q : Fin 256) (j : Fin 2048)
    (hj : j.val = win1_3.index t (1 : Fin 2) * 256 + q.val) :
    iblk1 V c 2 t (ix2 (0 : Fin 1) q) = V c main_v2 (ix2 (0 : Fin 1) j) := by
  obtain ⟨-, -, -, -, e4, e5, -⟩ := idx_facts1 t
  show V c main_v2 (((cfg1.win 2).blk t).view.emb (ix2 (0 : Fin 1) q)) = V c main_v2 (ix2 (0 : Fin 1) j)
  have h : ((cfg1.win 2).blk t).view.emb (ix2 (0 : Fin 1) q) = (ix2 (0 : Fin 1) j) := funext fun a => Fin.ext (by
    match a with
    | ⟨0, _⟩ => show win1_2.index t (0 : Fin 2) * 1 + 1 * 0 = 0; omega
    | ⟨1, _⟩ => show win1_2.index t (1 : Fin 2) * 256 + 1 * q.val = j.val; omega)
  rw [h]

/-- The body's result on the blocks of a point, at (p, q): the layer's value at the entry's place in the array. -/
theorem entry1 (c : Dev nD) (t : Fin cfg1.N) (p : Fin 256) (q : Fin 256) (r : Fin 8192) (j : Fin 2048)
    (hr : r.val = win1_3.index t (0 : Fin 2) * 256 + p.val) (hj : j.val = win1_3.index t (1 : Fin 2) * 256 + q.val) :
    k1_pay1 (F := Ideal) (iblk1 V c 0 t) (iblk1 V c 1 t) (iblk1 V c 2 t) (ix2 p q)
      = layer1 (V c main_v27) (V c main_v26) (V c main_v2) r j := by
  rw [k1_pay1_apply]
  unfold layer1
  rw [bBlock1_apply V c t q j hj]
  refine congrArg (fun z => z + V c main_v2 (ix2 (0 : Fin 1) j)) ?_
  refine Finset.sum_congr rfl fun k _ => ?_
  rw [wBlock1_apply V c t q k j hj]
  refine congrArg (fun z => z * V c main_v26 (ix2 j k)) ?_
  refine congrArg (fun row => actQ row k) ?_
  funext k'
  exact tokBlock1_apply V c t p k' r hr

/-- What a point writes back is its block of the layer's array. -/
theorem flushed1_eq (c : Dev nD) (t : Fin cfg1.N) :
    (dat1 V c).flushed 3 t = ((cfg1.win 3).blk t).view.read (Elt Ideal) (arr1 V c) := by
  show (cfg1.win 3).cut (grid1.coords t) ((dat1 V c).after 3 t) = _
  rw [after1_3]
  unfold out1_3
  rw [View.canon_unit_zero zero_offsets1]
  simp only [View.ld_unit_zero (S := S256x8192) zero_offsets1, View.ld_unit_zero (S := S1x256) zero_offsets1]
  obtain ⟨-, -, -, -, -, -, e6, e7⟩ := idx_facts1 t
  funext y
  have hy0 : (y 0).val < 256 := (y 0).isLt
  have hy1 : (y 1).val < 256 := (y 1).isLt
  obtain ⟨p, q, rfl⟩ : ∃ (p : Fin 256) (q : Fin 256), y = ix2 p q :=
    ⟨⟨(y 0).val, hy0⟩, ⟨(y 1).val, hy1⟩, funext fun a => Fin.ext (by match a with | ⟨0, _⟩ => rfl | ⟨1, _⟩ => rfl)⟩
  show k1_pay1 (F := Ideal) (iblk1 V c 0 t) (iblk1 V c 1 t) (iblk1 V c 2 t) (ix2 p q)
    = arr1 V c (((cfg1.win 3).blk t).view.emb (ix2 p q))
  rw [entry1 V c t p q ⟨win1_3.index t (0 : Fin 2) * 256 + p.val, by have := p.isLt; omega⟩
    ⟨win1_3.index t (1 : Fin 2) * 256 + q.val, by have := q.isLt; omega⟩ rfl rfl]
  unfold arr1
  congr 1
  · apply Fin.ext
    show win1_3.index t (0 : Fin 2) * 256 + p.val = win1_3.index t (0 : Fin 2) * 256 + 1 * p.val
    omega
  · apply Fin.ext
    show win1_3.index t (1 : Fin 2) * 256 + q.val = win1_3.index t (1 : Fin 2) * 256 + 1 * q.val
    omega

/-- An index of the result array is in a point's block iff each coordinate is in the block's range on its axis. -/
theorem mem_blk1 (t : Fin cfg1.N) (i : S8192x2048.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v28).slice (win1_3.rect t)).set ↔ _
  rw [View.set_slice_whole, Rect.mem_set_unit]
  exact Iff.rfl

/-- After the last point the result array holds the layer's value everywhere: the blocks tile it. -/
theorem final1 (c : Dev nD) : (dat1 V c).arrAt 3 cfg1.N = arr1 V c :=
  (dat1 V c).arrAt_eq_of_cover 3 (arr1 V c) (fun t _ => flushed1_eq V c t) (fun i => by
    have hi0 : (i 0).val < 8192 := (i 0).isLt
    have hi1 : (i 1).val < 2048 := (i 1).isLt
    obtain ⟨t, ht⟩ := idx_onto1 ⟨(i 0).val / 256, by omega⟩ ⟨(i 1).val / 256, by omega⟩
    have q0 : win1_3.index t (0 : Fin 2) = (i 0).val / 256 := congrFun ht 0
    have q1 : win1_3.index t (1 : Fin 2) = (i 1).val / 256 := congrFun ht 1
    refine ⟨t, flush1_3 t, ?_⟩
    rw [mem_blk1]
    intro a
    match a with
    | ⟨0, _⟩ => show win1_3.index t (0 : Fin 2) * 256 ≤ (i 0).val ∧ (i 0).val < win1_3.index t (0 : Fin 2) * 256 + 256; omega
    | ⟨1, _⟩ => show win1_3.index t (1 : Fin 2) * 256 ≤ (i 1).val ∧ (i 1).val < win1_3.index t (1 : Fin 2) * 256 + 256; omega)

end Cert.BitMlp

end
-- ==== Proof.HostK.lean ====
/-
  The host side of the program: what the two matrix-product regions are handed, and what is made of their result.

  Before the first region the host merges the two leading axes of the activations ([2, 4096, 2048] to [8192, 2048]:
  row r of the merged array is row r % 4096 of batch r / 4096), gives each bias a leading unit axis, and quantizes
  each weight matrix to three levels with one scale for the whole matrix: with t = 0 + Σ |w| over all entries,
  M = max(1e-5, t / 2^24) and σ = 1 / M, a weight w becomes clip(round(w · σ), -1, 1) / σ (clipped below first, then
  above), which is wQ t w. After the second region the host splits the leading axis of its output back
  ([8192, 2048] to [2, 4096, 2048]: entry (b, s, d) is entry (b · 4096 + s, d)).

  The quantization is stated once, as a function of a weight array of any shape, and read at an index there; the
  program's buffers are then shown to hold that function of the launch contents of the weight arguments.
-/
import proofs.«126453_j69544110457391_2_alg».proof.Proof.Gen.KernelIdeal.Frame
import proofs.«126453_j69544110457391_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.BitMlp

open Cert.KernelIdeal Cert.KernelIdeal.Gen Idealize.ShloMosaic Idealize.ShloMosaic.ValueIdx
open Idealize.ShloMosaic.TcCoe Idealize.SL.Sem

/-! ## The three-level weight quantization as one function of the weight array

The host computes, from a weight array w of any shape: the scalar total t = 0 + Σ |w|, the mean t / 2^24, its
floor M = max(1e-5, mean), the scale σ = 1 / M; then elementwise round(w · σ), clipped below by -1 and above by 1,
divided by σ, and converted to the narrower format (the identity on exact numbers). Entry i of the result is therefore
wQ (0 + Σ |w|) (w i). -/

/-- The scalar shape. -/
abbrev S0 : Shape := ⟨0, ![]⟩

/-- The scale σ as a scalar array: 1 / max(1e-5, (0 + Σ |w|) / 2^24). -/
def wScaleV {s : Shape} {axes : List (Fin s.rank)} (hr : s.ReducesTo axes S0) (hu : 0 < S0.numel)
    (w : FVec Ideal s .f32) : FVec Ideal S0 .f32 :=
  Host.divf (F := Ideal) (constant (F := Ideal) S0 .f32 0x3F800000#32)
    (maximumf (F := Ideal) (id (constant (F := Ideal) S0 .f32 0x3727C5AC#32))
      (Host.divf (F := Ideal)
        (Host.reduceAdd (F := Ideal) (Host.absf (F := Ideal) w) (constant (F := Ideal) S0 .f32 0x00000000#32) hr hu)
        (constant (F := Ideal) S0 .f32 0x4B800000#32)))

/-- The quantized weights as an array: clip(round(w · σ), -1, 1) / σ, in the narrower format. -/
def wChain {s : Shape} {axes : List (Fin s.rank)} (hr : s.ReducesTo axes S0) (hu : 0 < S0.numel)
    (hb : S0.BroadcastsInDim s (![] : Fin 0 → Fin s.rank)) (w : FVec Ideal s .f32) : FVec Ideal s .bf16 :=
  truncf (F := Ideal) .bf16
    (Host.divf (F := Ideal)
      (minimumf (F := Ideal) (broadcastInDim s ![] hb (id (constant (F := Ideal) S0 .f32 0x3F800000#32)))
        (maximumf (F := Ideal) (broadcastInDim s ![] hb (id (constant (F := Ideal) S0 .f32 0xBF800000#32)))
          (Host.roundeven (F := Ideal) (mulf (F := Ideal) w (broadcastInDim s ![] hb (wScaleV hr hu w))))))
      (broadcastInDim s ![] hb (wScaleV hr hu w)))
    (by decide)

/-- The scale array's one entry is wScale of the total 0 + Σ |w|: the sum over all axes into the scalar shape is the
    initial value plus the sum over every index. -/
theorem wScaleV_apply {s : Shape} {axes : List (Fin s.rank)} (hr : s.ReducesTo axes S0) (hu : 0 < S0.numel)
    (w : FVec Ideal s .f32) (j : S0.Idx) : wScaleV hr hu w j = wScale (absSum w) := by
  show Ideal.div c1 (max eps (Ideal.div (Ideal.hostReduceAdd hr (fun i => max (w i) (-(w i))) c0 j) c2p24)) = _
  rw [Ideal.hostReduceAdd_total hr (fun b => b.elim0)]
  rfl

/-- Entry i of the quantized weight array. -/
theorem wChain_apply {s : Shape} {axes : List (Fin s.rank)} (hr : s.ReducesTo axes S0) (hu : 0 < S0.numel)
    (hb : S0.BroadcastsInDim s (![] : Fin 0 → Fin s.rank)) (w : FVec Ideal s .f32) (i : s.Idx) :
    wChain hr hu hb w i = wQ (absSum w) (w i) := by
  have hσ : broadcastInDim s ![] hb (wScaleV hr hu w) i = wScale (absSum w) := wScaleV_apply hr hu w _
  show Ideal.div (min c1 (max cm1 (rnd (w i * broadcastInDim s ![] hb (wScaleV hr hu w) i))))
      (broadcastInDim s ![] hb (wScaleV hr hu w) i) = _
  rw [hσ]
  rfl

/-! ## The host side of the program, read at the TensorCore's buffers

The buffer contents at a boundary are a fold of the host operations over the launch memory. Walking the fold back
from the entry of region 0 to the launch gives each buffer as the composition of the operations that produced it,
applied to the argument arrays as launched. -/

variable (m : (ℓ : Loc nD τ sig) → Buf (Elt Ideal) ℓ) (ρ : Dev nD → PrngReg) (c : Dev nD)

/-- The first operand of region 0 is the activation array with its two leading axes merged. -/
theorem entry_v0 :
    (W13 (F := Ideal) m ρ c (Proc.devRef .tc main_v0) : S8192x2048.Idx → EReal)
      = shapeCast S8192x2048 (m ((c : Thread nD τ).loc main_arg0) : S2x4096x2048.Idx → EReal)
          Facts₀.shapeCasts_S2x4096x2048_S8192x2048 := by
  show StableHlo.after hostOps0_12 (W12 (F := Ideal) m ρ c) (Proc.devRef .tc main_v0) = _
  after_results_simp
  rfl

/-- Row r of the merged array is row r % 4096 of batch r / 4096. -/
theorem host_v0 (r : Fin 8192) (k : Fin 2048) :
    V13 (F := Ideal) m ρ c main_v0 (ix2 r k)
      = m ((c : Thread nD τ).loc main_arg0)
          (ix3 (⟨r.val / 4096, by have := r.isLt; omega⟩ : Fin 2) (⟨r.val % 4096, Nat.mod_lt _ (by decide)⟩ : Fin 4096) k) := by
  refine (congrFun (entry_v0 m ρ c) (ix2 r k)).trans ?_
  refine shapeCast_apply _ _ _ _ ?_
  show (S2x4096x2048.rowMajor (ix3 (⟨r.val / 4096, _⟩ : Fin 2) (⟨r.val % 4096, _⟩ : Fin 4096) k)).val
    = (S8192x2048.rowMajor (ix2 r k)).val
  rw [Shape.rowMajor_val_three, Shape.rowMajor_val_two]
  show (r.val / 4096 * 4096 + r.val % 4096) * 2048 + k.val = r.val * 2048 + k.val
  have := Nat.div_add_mod r.val 4096
  omega

/-- The third operand of region 0 is the first bias with a leading unit axis. -/
theorem entry_v1 :
    (W13 (F := Ideal) m ρ c (Proc.devRef .tc main_v1) : S1x8192.Idx → EReal)
      = shapeCast S1x8192 (m ((c : Thread nD τ).loc main_arg2) : S8192.Idx → EReal) Facts₀.shapeCasts_S8192_S1x8192 := by
  show StableHlo.after hostOps0_12 (W12 (F := Ideal) m ρ c) (Proc.devRef .tc main_v1) = _
  after_results_simp
  rfl

theorem host_v1 (j : Fin 8192) :
    V13 (F := Ideal) m ρ c main_v1 (ix2 (0 : Fin 1) j) = m ((c : Thread nD τ).loc main_arg2) (ix1 j) :=
  (congrFun (entry_v1 m ρ c) (ix2 (0 : Fin 1) j)).trans (shapeCast_a_1a_apply _ _ (0 : Fin 1) j)

/-- The third operand of region 1 is the second bias with a leading unit axis. -/
theorem entry_v2 :
    (W13 (F := Ideal) m ρ c (Proc.devRef .tc main_v2) : S1x2048.Idx → EReal)
      = shapeCast S1x2048 (m ((c : Thread nD τ).loc main_arg4) : S2048.Idx → EReal) Facts₀.shapeCasts_S2048_S1x2048 := by
  show StableHlo.after hostOps0_12 (W12 (F := Ideal) m ρ c) (Proc.devRef .tc main_v2) = _
  after_results_simp
  rfl

theorem host_v2 (d : Fin 2048) :
    V13 (F := Ideal) m ρ c main_v2 (ix2 (0 : Fin 1) d) = m ((c : Thread nD τ).loc main_arg4) (ix1 d) :=
  (congrFun (entry_v2 m ρ c) (ix2 (0 : Fin 1) d)).trans (shapeCast_a_1a_apply _ _ (0 : Fin 1) d)

/-- The second operand of region 0 is the three-level quantization of the first weight matrix. -/
theorem entry_v14 :
    (W13 (F := Ideal) m ρ c (Proc.devRef .tc main_v14) : S8192x2048.Idx → EReal)
      = wChain Facts₀.reducesTo_S8192x2048_S_d0_1 Facts₀.h_S_ Facts₀.bcast_S_S8192x2048
          (m ((c : Thread nD τ).loc main_arg1) : S8192x2048.Idx → EReal) := by
  show StableHlo.after hostOps0_12 (W12 (F := Ideal) m ρ c) (Proc.devRef .tc main_v14) = _
  after_results_simp
  rfl

theorem host_v14 (j : Fin 8192) (k : Fin 2048) :
    V13 (F := Ideal) m ρ c main_v14 (ix2 j k)
      = wQ (absSum (m ((c : Thread nD τ).loc main_arg1) : S8192x2048.Idx → EReal))
          (m ((c : Thread nD τ).loc main_arg1) (ix2 j k)) :=
  (congrFun (entry_v14 m ρ c) (ix2 j k)).trans (wChain_apply _ _ _ _ (ix2 j k))

/-- The second operand of region 1 is the three-level quantization of the second weight matrix. -/
theorem entry_v26 :
    (W13 (F := Ideal) m ρ c (Proc.devRef .tc main_v26) : S2048x8192.Idx → EReal)
      = wChain Facts₀.reducesTo_S2048x8192_S_d0_1 Facts₀.h_S_ Facts₀.bcast_S_S2048x8192
          (m ((c : Thread nD τ).loc main_arg3) : S2048x8192.Idx → EReal) := by
  show StableHlo.after hostOps0_12 (W12 (F := Ideal) m ρ c) (Proc.devRef .tc main_v26) = _
  after_results_simp
  rfl

theorem host_v26 (d : Fin 2048) (k : Fin 8192) :
    V13 (F := Ideal) m ρ c main_v26 (ix2 d k)
      = wQ (absSum (m ((c : Thread nD τ).loc main_arg3) : S2048x8192.Idx → EReal))
          (m ((c : Thread nD τ).loc main_arg3) (ix2 d k)) :=
  (congrFun (entry_v26 m ρ c) (ix2 d k)).trans (wChain_apply _ _ _ _ (ix2 d k))

/-- The program's result is region 1's output with its leading axis split in two. -/
theorem exit_v29 :
    (W16 (F := Ideal) m ρ c (Proc.devRef .tc main_v29) : S2x4096x2048.Idx → EReal)
      = shapeCast S2x4096x2048 (W15 (F := Ideal) m ρ c (Proc.devRef .tc main_v28) : S8192x2048.Idx → EReal)
          Facts₀.shapeCasts_S8192x2048_S2x4096x2048 := by
  show StableHlo.after hostOps2 (W15 (F := Ideal) m ρ c) (Proc.devRef .tc main_v29) = _
  after_results
  rfl

/-- Entry (b, s, d) of the result is entry (b · 4096 + s, d) of region 1's output. -/
theorem host_v29 (b : Fin 2) (s : Fin 4096) (d : Fin 2048) :
    W16 (F := Ideal) m ρ c (Proc.devRef .tc main_v29) (ix3 b s d)
      = W15 (F := Ideal) m ρ c (Proc.devRef .tc main_v28)
          (ix2 (⟨b.val * 4096 + s.val, by have := b.isLt; have := s.isLt; omega⟩ : Fin 8192) d) := by
  refine (congrFun (exit_v29 m ρ c) (ix3 b s d)).trans ?_
  refine shapeCast_apply _ _ _ _ ?_
  show (S8192x2048.rowMajor (ix2 (⟨b.val * 4096 + s.val, _⟩ : Fin 8192) d)).val
    = (S2x4096x2048.rowMajor (ix3 b s d)).val
  rw [Shape.rowMajor_val_three, Shape.rowMajor_val_two]
  rfl

end Cert.BitMlp

end
-- ==== Proof.KernelValue.lean ====
/-
  The idealized kernel program's result, entry by entry.

  The program reshapes the tokens to 8192 rows, quantizes both weight matrices once on the host, runs the first
  layer (its result the hidden array of 8192 rows by 8192 columns), runs the second layer on the hidden array, and
  reshapes the 8192 by 2048 result back to [2, 4096, 2048]. Entry (b, s, d) of the result is therefore the
  specification's output row of token row b*4096 + s at d: the second layer reads the first layer's array, whose
  row is the specification's hidden row of the token's row.
-/
import proofs.«126453_j69544110457391_2_alg».proof.Proof.Blocks0
import proofs.«126453_j69544110457391_2_alg».proof.Proof.Blocks1
import proofs.«126453_j69544110457391_2_alg».proof.Proof.HostK

set_option maxRecDepth 16384

noncomputable section

namespace Cert.BitMlp

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-- After the first region the hidden array holds the first layer's value of the arrays the region was entered with. -/
theorem hidden_array (c : Dev nD) : V14 (F := Ideal) m ρ c main_v27 = arr0 (V13 (F := Ideal) m ρ) c := by
  show W14 (F := Ideal) m ρ c (Proc.devRef .tc (Pipeline.arrRef spec0 3)) = _
  rw [W14_arr]
  exact final0 (V13 (F := Ideal) m ρ) c

/-- The first region leaves the second weight array and the second bias row as it found them. -/
theorem weights2_kept (c : Dev nD) : V14 (F := Ideal) m ρ c main_v26 = V13 (F := Ideal) m ρ c main_v26 :=
  W14_of_ne m ρ c main_v26 (by decide)
theorem bias2_kept (c : Dev nD) : V14 (F := Ideal) m ρ c main_v2 = V13 (F := Ideal) m ρ c main_v2 :=
  W14_of_ne m ρ c main_v2 (by decide)

/-- After the second region its result array holds the second layer's value of the arrays it was entered with. -/
theorem out_array (c : Dev nD) : W15 (F := Ideal) m ρ c (Proc.devRef .tc main_v28) = arr1 (V14 (F := Ideal) m ρ) c := by
  show W15 (F := Ideal) m ρ c (Proc.devRef .tc (Pipeline.arrRef spec1 3)) = _
  rw [W15_arr]
  exact final1 (V14 (F := Ideal) m ρ) c

/-- Row r of the hidden array is the specification's hidden row of token row r. -/
theorem hidden_row (c : Dev nD) (b : Fin 2) (s : Fin 4096) (r : Fin 8192) (hr : r.val = b.val * 4096 + s.val) (j : Fin 8192) :
    V14 (F := Ideal) m ρ c main_v27 (ix2 r j)
      = hiddenRow (fun k => m ((c : Thread nD τ).loc main_arg0) (ix3 b s k))
          (fun j k => wQ (absSum (m ((c : Thread nD τ).loc main_arg1))) (m ((c : Thread nD τ).loc main_arg1) (ix2 j k)))
          (fun j => m ((c : Thread nD τ).loc main_arg2) (ix1 j)) j := by
  rw [hidden_array]
  show layer0 (V13 (F := Ideal) m ρ c main_v0) (V13 (F := Ideal) m ρ c main_v14) (V13 (F := Ideal) m ρ c main_v1) r j = _
  unfold layer0 hiddenRow
  rw [host_v1 m ρ c j]
  refine congrArg (fun z => max (z + m ((c : Thread nD τ).loc main_arg2) (ix1 j)) c0) ?_
  refine Finset.sum_congr rfl fun k _ => ?_
  rw [host_v14 m ρ c j k]
  refine congrArg (fun row => actQ row k * _) ?_
  funext k'
  rw [host_v0 m ρ c r k']
  refine congrArg (fun i => m ((c : Thread nD τ).loc main_arg0) i) ?_
  have hb := b.isLt
  have hs := s.isLt
  funext a
  apply Fin.ext
  match a with
  | ⟨0, _⟩ => show r.val / 4096 = b.val; omega
  | ⟨1, _⟩ => show r.val % 4096 = s.val; omega
  | ⟨2, _⟩ => rfl

/-- Entry (b, s, d) of the program's result is the specification's output row of that token at d. -/
theorem kernel_value (c : Dev nD) (b : Fin 2) (s : Fin 4096) (d : Fin 2048) :
    W16 (F := Ideal) m ρ c (Proc.devRef .tc main_v29) (ix3 b s d)
      = outRow (fun k => m ((c : Thread nD τ).loc main_arg0) (ix3 b s k))
          (fun j k => wQ (absSum (m ((c : Thread nD τ).loc main_arg1))) (m ((c : Thread nD τ).loc main_arg1) (ix2 j k)))
          (fun j => m ((c : Thread nD τ).loc main_arg2) (ix1 j))
          (fun e k => wQ (absSum (m ((c : Thread nD τ).loc main_arg3))) (m ((c : Thread nD τ).loc main_arg3) (ix2 e k)))
          (fun e => m ((c : Thread nD τ).loc main_arg4) (ix1 e)) d := by
  have hb := b.isLt
  have hs := s.isLt
  rw [host_v29 m ρ c b s d, out_array]
  show layer1 (V14 (F := Ideal) m ρ c main_v27) (V14 (F := Ideal) m ρ c main_v26) (V14 (F := Ideal) m ρ c main_v2)
    ⟨b.val * 4096 + s.val, by omega⟩ d = _
  unfold layer1 outRow
  rw [bias2_kept, weights2_kept, host_v2 m ρ c d]
  refine congrArg (fun z => z + m ((c : Thread nD τ).loc main_arg4) (ix1 d)) ?_
  refine Finset.sum_congr rfl fun k _ => ?_
  rw [host_v26 m ρ c d k]
  refine congrArg (fun row => actQ row k * _) ?_
  funext j
  exact hidden_row m ρ c b s ⟨b.val * 4096 + s.val, by omega⟩ rfl j

end Cert.BitMlp

end
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.RefValueReal.lean ====
/-
  The quantized perceptron's intermediate quantities are real numbers when its inputs are.

  On the extended reals the straight-through form a + (q - a) collapses to q exactly when a is a real
  number, whatever q is. To use that on a program one carries, through every operation, the fact that the
  quantity met is the image of a real. This file does so for the quantities of the specification:

    * a row's largest magnitude (a running maximum from minus infinity of absolute values of reals) is never
      plus infinity, so its maximum with the positive floor is a POSITIVE real, and 127 over it is a positive
      real;
    * zero plus a finite sum of absolute values of reals is a real; a real over the positive real 2^24 is a
      real, its maximum with the floor a positive real, and one over that a positive real;
    * clip (z, lo, hi) lies between two reals and so is a real even when z is infinite; a real over a
      positive real is a real: every quantized entry is a real;
    * finite sums of products of reals, plus a real, capped below by zero, are reals: the hidden row is real.
-/
import proofs.«126453_j69544110457391_2_alg».proof.Proof.Spec
import proofs.«126453_j69544110457391_2_alg».proof.Proof.LibRealValued

noncomputable section

namespace Cert.BitMlp.Ref

open Idealize.ShloMosaic Cert.RealValued

/-! ## Extended reals -/

/-- For a REAL a, a + (q - a) = q whatever q is (at q = ±∞ both sides are that infinity). -/
theorem add_sub_cancel_real {a : EReal} (ha : IsReal a) (q : EReal) : a + (q - a) = q := by
  obtain ⟨r, rfl⟩ := ha
  induction q using EReal.rec with
  | bot => rw [EReal.bot_sub, EReal.add_bot]
  | top => rw [EReal.top_sub_coe, EReal.coe_add_top]
  | coe s => rw [← EReal.coe_sub, ← EReal.coe_add]; congr 1; ring

theorem isReal_ne_top {a : EReal} (ha : IsReal a) : a ≠ ⊤ := by
  obtain ⟨r, rfl⟩ := ha; exact EReal.coe_ne_top r

theorem isReal_max {a b : EReal} (ha : IsReal a) (hb : IsReal b) : IsReal (max a b) := by
  obtain ⟨r, rfl⟩ := ha; obtain ⟨s, rfl⟩ := hb
  exact ⟨Max.max r s, (EReal.coe_strictMono.monotone.map_max).symm⟩

theorem isReal_min {a b : EReal} (ha : IsReal a) (hb : IsReal b) : IsReal (min a b) := by
  obtain ⟨r, rfl⟩ := ha; obtain ⟨s, rfl⟩ := hb
  exact ⟨Min.min r s, (EReal.coe_strictMono.monotone.map_min).symm⟩

/-- clip (z, lo, hi) between two reals is a real, even at z = ±∞. -/
theorem isReal_clip {lo hi : EReal} (hlo : IsReal lo) (hhi : IsReal hi) (z : EReal) :
    IsReal (Min.min hi (Max.max lo z)) := by
  induction z using EReal.rec with
  | bot => rw [max_bot_right]; exact isReal_min hhi hlo
  | top => rw [max_top_right, min_top_right]; exact hhi
  | coe r => exact isReal_min hhi (isReal_max hlo (isReal_coe r))

/-- The quotient of two reals, the divisor nonzero, is the real quotient. -/
theorem div_coe_coe (a r : ℝ) (hr : r ≠ 0) : Ideal.div (a : EReal) (r : EReal) = ((a / r : ℝ) : EReal) := by
  unfold Ideal.div
  rw [if_neg (EReal.coe_ne_zero.mpr hr), ← EReal.coe_inv, ← EReal.coe_mul, div_eq_mul_inv]

/-- A real over a positive real is a real. -/
theorem isReal_div_pos {a s : EReal} (ha : IsReal a) (hs : IsPos s) : IsReal (Ideal.div a s) := by
  obtain ⟨x, rfl⟩ := ha; obtain ⟨r, hr, rfl⟩ := hs
  exact ⟨x / r, div_coe_coe x r (ne_of_gt hr)⟩

/-- A positive real over a positive real is a positive real. -/
theorem isPos_div_pos {a s : EReal} (ha : IsPos a) (hs : IsPos s) : IsPos (Ideal.div a s) := by
  obtain ⟨x, hx, rfl⟩ := ha; obtain ⟨r, hr, rfl⟩ := hs
  exact ⟨x / r, _root_.div_pos hx hr, div_coe_coe x r (ne_of_gt hr)⟩

/-- The larger of a positive real and anything but plus infinity is a positive real. -/
theorem isPos_max_of_ne_top {e a : EReal} (he : IsPos e) (ha : a ≠ ⊤) : IsPos (Max.max e a) := by
  obtain ⟨r, hr, rfl⟩ := he
  induction a using EReal.rec with
  | bot => rw [max_bot_right]; exact ⟨r, hr, rfl⟩
  | top => exact absurd rfl ha
  | coe s => exact ⟨Max.max r s, lt_max_of_lt_left hr, (EReal.coe_strictMono.monotone.map_max).symm⟩

/-- A running maximum that starts below plus infinity and meets only values below it stays below it. -/
theorem fold_max_ne_top {ι : Type} (s : Finset ι) (b : EReal) (f : ι → EReal) (hb : b ≠ ⊤)
    (hf : ∀ i ∈ s, f i ≠ ⊤) : s.fold Max.max b f ≠ ⊤ := by
  rw [← lt_top_iff_ne_top, Finset.fold_max_lt]
  exact ⟨lt_top_iff_ne_top.2 hb, fun i hi => lt_top_iff_ne_top.2 (hf i hi)⟩

/-! ## The constants -/

theorem negInf_eq : negInf = ⊥ := by
  simp [negInf, Ideal.ofBits, Ideal.ieee]

theorem c0_eq : c0 = 0 := Ideal.ofBits_zero_f32

theorem eps_pos : IsPos eps := by
  refine ⟨(10995116 : ℝ) * (2 : ℝ) ^ (-40 : ℤ), by positivity, ?_⟩
  simp [eps, Ideal.ofBits, Ideal.ieee, -EReal.coe_mul]

theorem c127_pos : IsPos c127 := by
  refine ⟨127, by norm_num, ?_⟩
  simp [c127, Ideal.ofBits, Ideal.ieee, -EReal.coe_mul]; norm_num

theorem c1_pos : IsPos c1 := by
  refine ⟨1, by norm_num, ?_⟩
  simp [c1, Ideal.ofBits, Ideal.ieee, -EReal.coe_mul]; norm_num

theorem c2p24_pos : IsPos c2p24 := by
  refine ⟨16777216, by norm_num, ?_⟩
  simp [c2p24, Ideal.ofBits, Ideal.ieee, -EReal.coe_mul]; norm_num

theorem cm128_isReal : IsReal cm128 := by
  refine ⟨-128, ?_⟩
  simp [cm128, Ideal.ofBits, Ideal.ieee, -EReal.coe_mul]; norm_num

theorem cm1_isReal : IsReal cm1 := by
  refine ⟨-1, ?_⟩
  simp [cm1, Ideal.ofBits, Ideal.ieee, -EReal.coe_mul]; norm_num

/-! ## The quantities of the specification -/

/-- A quantized entry clip (round (x * s), lo, hi) / s is a real when lo, hi are reals and s a positive real,
    whatever x is. -/
theorem quant_isReal {lo hi s : EReal} (hlo : IsReal lo) (hhi : IsReal hi) (hs : IsPos s) (x : EReal) :
    IsReal (quant lo hi s x) :=
  isReal_div_pos (isReal_clip hlo hhi _) hs

/-- A row of reals has a largest magnitude below plus infinity. -/
theorem absMax_ne_top {n : Nat} (row : Fin n → EReal) (h : ∀ k, IsReal (row k)) : absMax row ≠ ⊤ := by
  unfold absMax
  refine fold_max_ne_top _ _ _ ?_ fun k _ => isReal_ne_top (h k).abs
  rw [negInf_eq]; exact bot_ne_top

/-- The scale of a row of reals is a positive real. -/
theorem actScale_pos {n : Nat} (row : Fin n → EReal) (h : ∀ k, IsReal (row k)) : IsPos (actScale row) :=
  isPos_div_pos c127_pos (isPos_max_of_ne_top eps_pos (absMax_ne_top row h))

/-- Every entry of the 8-bit quantization of a row of reals is a real. -/
theorem actQ_isReal {n : Nat} (row : Fin n → EReal) (h : ∀ k, IsReal (row k)) (k : Fin n) : IsReal (actQ row k) :=
  quant_isReal cm128_isReal c127_pos.isReal (actScale_pos row h) _

/-- Zero plus the sum of the absolute values of a family of reals is a real. -/
theorem absSum_isReal {ι : Type} [Fintype ι] (w : ι → EReal) (h : ∀ i, IsReal (w i)) : IsReal (absSum w) := by
  unfold absSum
  rw [c0_eq]
  exact isReal_zero.add (isReal_sum _ _ fun i _ => (h i).abs)

/-- The scale of a weight matrix is a positive real as soon as the sum it is computed from is a real. -/
theorem wScale_pos {tot : EReal} (h : IsReal tot) : IsPos (wScale tot) :=
  isPos_div_pos c1_pos (isPos_max_of_ne_top eps_pos (isReal_ne_top (isReal_div_pos h c2p24_pos)))

/-- A three-level quantized weight is a real as soon as the sum its scale is computed from is a real. -/
theorem wQ_isReal {tot : EReal} (h : IsReal tot) (w : EReal) : IsReal (wQ tot w) :=
  quant_isReal cm1_isReal c1_pos.isReal (wScale_pos h) _

/-- The hidden row of a real token under real weights and offsets is real. -/
theorem hiddenRow_isReal (xrow : Fin 2048 → EReal) (W1 : Fin 8192 → Fin 2048 → EReal) (b1 : Fin 8192 → EReal)
    (hx : ∀ k, IsReal (xrow k)) (hW : ∀ j k, IsReal (W1 j k)) (hb : ∀ j, IsReal (b1 j)) (j : Fin 8192) :
    IsReal (hiddenRow xrow W1 b1 j) := by
  unfold hiddenRow
  rw [c0_eq]
  exact isReal_max ((isReal_sum _ _ fun k _ => (actQ_isReal xrow hx k).mul (hW j k)).add (hb j)) isReal_zero

end Cert.BitMlp.Ref

end
-- ==== Proof.RefValue.lean ====
/-
  The reference program read at an index: its result at token (b, s), column d, is the specification's
  output row of that token at d, when every input entry is a real number.

  The reference computes, for each of its two layers, a row-wise 8-bit quantization q(a) of the activations
  and a three-level quantization q(w) of the weights, then feeds a + (q(a) - a) and w + (q(w) - w) to the
  contraction. On the extended reals a + (q - a) = q as soon as a is a real number, whatever q is. So:

    * the quantizations themselves read at an index are the specification's actQ and wQ with no hypothesis
      (a row's running maximum of absolute values from minus infinity is absMax of that row; every broadcast
      reads the scalar or the row's scale it repeats);
    * the first layer's straight-through forms collapse because the inputs are real; the hidden row is then
      the specification's hiddenRow, which is real because its ingredients are;
    * the second layer's collapse for that reason, and the result is the specification's outRow.
-/
import proofs.«126453_j69544110457391_2_alg».proof.Proof.ReadP
import proofs.«126453_j69544110457391_2_alg».proof.Proof.RefValueReal
import Idealize.ShloMosaic.PureOps.Reduce

noncomputable section

namespace Cert.BitMlp.Ref

open Idealize.ShloMosaic Idealize.ShloMosaic.ValueIdx Cert.RealValued Cert.ReferenceIdeal Cert.ReferenceIdeal.ReadP

/-! ## A running maximum over the last of three axes -/

/-- Reducing the last axis of [a, b, c]: the index (p, q) with the coordinate k inserted is (p, q, k). -/
theorem lift3 {a b c : ℕ} (h : (⟨3, ![a, b, c]⟩ : Shape).Reduces [2] ⟨2, ![a, b]⟩) (p : Fin a) (q : Fin b) (k : Fin c) :
    h.lift (ix2 p q) k = ix3 p q k := by
  funext d
  apply Fin.ext
  match d with
  | ⟨0, _⟩ => rfl
  | ⟨1, _⟩ => rfl
  | ⟨2, _⟩ => rfl

/-- The maximum-reduction of a rank-3 array over its last axis, read at (p, q): the running maximum, from the
    initial value, of the entries (p, q, k). -/
theorem reduceMax3_apply {a b c : ℕ} (v : (⟨3, ![a, b, c]⟩ : Shape).Idx → EReal) (init : (⟨0, ![]⟩ : Shape).Idx → EReal)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (q : Fin b) :
    Host.reduce (max : EReal → EReal → EReal) v init h' hu (ix2 p q)
      = (Finset.univ : Finset (Fin c)).fold max (init (Shape.Idx.first hu)) (fun k => v (ix3 p q k)) := by
  refine (Host.reduce_eq_fold_single _ v init h' h hu (ix2 p q)).trans ?_
  show Finset.fold max _ _ (Finset.univ : Finset (Fin c)) = _
  congr 1
  funext k
  exact congrArg v (lift3 h p q k)

/-! ## The first layer's activations -/

/-- The largest magnitude of row (b, s) of the input. -/
theorem v1_read (x0 : (⟨S2x4096x2048, .f32⟩ : BufTy).Contents (Elt Ideal)) (b : Fin 2) (s : Fin 4096) :
    val_main_v1 (F := Ideal) x0 (ix2 b s) = absMax (fun k => x0 (ix3 b s k)) := by
  unfold val_main_v1
  refine (reduceMax3_apply (val_main_v0 (F := Ideal) x0) (val_main_cst (F := Ideal)) _ (by decide) _ b s).trans ?_
  rw [val_main_cst_apply]
  simp only [val_main_v0_apply, Ideal.hostAbsf_def, Ideal.absf_def]
  rfl

/-- The scale of row (b, s) of the input. -/
theorem v5_read (x0 : (⟨S2x4096x2048, .f32⟩ : BufTy).Contents (Elt Ideal)) (b : Fin 2) (s : Fin 4096) (u : Fin 1) :
    val_main_v5 (F := Ideal) x0 (ix3 b s u) = actScale (fun k => x0 (ix3 b s k)) := by
  have e : idx_main_v2 (ix3 b s u) = ix2 b s := by
    funext a; match a with | ⟨0, _⟩ => rfl | ⟨1, _⟩ => rfl
  rw [val_main_v5_apply, val_main_v4_apply, val_main_cst_1_apply, val_main_v3_apply, val_main_call0_v1_apply,
    val_main_call0_v0_apply, val_main_cst_0_apply, val_main_v2_apply, e, v1_read]
  rfl

/-- The 8-bit quantization of the input, entry (b, s, d). -/
theorem v11_read (x0 : (⟨S2x4096x2048, .f32⟩ : BufTy).Contents (Elt Ideal)) (b : Fin 2) (s : Fin 4096) (d : Fin 2048) :
    val_main_v11 (F := Ideal) x0 (ix3 b s d) = actQ (fun k => x0 (ix3 b s k)) d := by
  have e6 : idx_main_v6 (ix3 b s d) = ix3 b s (0 : Fin 1) := by
    funext a; match a with | ⟨0, _⟩ => rfl | ⟨1, _⟩ => rfl | ⟨2, _⟩ => rfl
  have e10 : idx_main_v10 (ix3 b s d) = ix3 b s (0 : Fin 1) := by
    funext a; match a with | ⟨0, _⟩ => rfl | ⟨1, _⟩ => rfl | ⟨2, _⟩ => rfl
  rw [val_main_v11_apply, val_main_v10_apply, e10, v5_read, val_main_v9_apply, val_main_call2_v4_apply,
    val_main_call2_v3_apply, val_main_cst_3_apply, val_main_call2_v2_apply, val_main_call2_v1_apply,
    val_main_call2_v0_apply, val_main_cst_2_apply, val_main_v8_apply, val_main_v7_apply, val_main_v6_apply, e6, v5_read]
  rfl

/-- The straight-through form x + (q - x) is q at a real input x. -/
theorem v13_read (x0 : (⟨S2x4096x2048, .f32⟩ : BufTy).Contents (Elt Ideal)) (h0 : ∀ i, IsReal (x0 i)) (b : Fin 2) (s : Fin 4096) (d : Fin 2048) :
    val_main_v13 (F := Ideal) x0 (ix3 b s d) = actQ (fun k => x0 (ix3 b s k)) d := by
  rw [val_main_v13_apply, val_main_v12_apply, v11_read]
  exact add_sub_cancel_real (h0 _) _

/-! ## The first weight matrix -/

/-- Zero plus the sum of the absolute values of every entry of the matrix. -/
theorem v15_read (x1 : (⟨S8192x2048, .f32⟩ : BufTy).Contents (Elt Ideal)) (i : S_.Idx) : val_main_v15 (F := Ideal) x1 i = absSum x1 := by
  rw [val_main_v15_apply, val_main_cst_4_apply]
  simp only [val_main_v14_apply, Ideal.hostAbsf_def, Ideal.absf_def]
  rfl

/-- The matrix's scale: one over the larger of the floor and the mean absolute value. -/
theorem v18_read (x1 : (⟨S8192x2048, .f32⟩ : BufTy).Contents (Elt Ideal)) (i : S_.Idx) : val_main_v18 (F := Ideal) x1 i = wScale (absSum x1) := by
  rw [val_main_v18_apply, val_main_cst_7_apply, val_main_v17_apply, val_main_call3_v0_apply,
    val_main_cst_6_apply, val_main_v16_apply, v15_read, val_main_cst_5_apply]
  rfl

/-- The three-level quantization of one weight. -/
theorem v24_read (x1 : (⟨S8192x2048, .f32⟩ : BufTy).Contents (Elt Ideal)) (i : S8192x2048.Idx) : val_main_v24 (F := Ideal) x1 i = wQ (absSum x1) (x1 i) := by
  rw [val_main_v24_apply, val_main_v23_apply, v18_read, val_main_v22_apply, val_main_call5_v4_apply,
    val_main_call5_v3_apply, val_main_cst_9_apply, val_main_call5_v2_apply, val_main_call5_v1_apply,
    val_main_call5_v0_apply, val_main_cst_8_apply, val_main_v21_apply, val_main_v20_apply,
    val_main_v19_apply, v18_read]
  rfl

/-- The straight-through form w + (q - w) is q at a real weight w. -/
theorem v26_read (x1 : (⟨S8192x2048, .f32⟩ : BufTy).Contents (Elt Ideal)) (h1 : ∀ i, IsReal (x1 i)) (i : S8192x2048.Idx) : val_main_v26 (F := Ideal) x1 i = wQ (absSum x1) (x1 i) := by
  rw [val_main_v26_apply, val_main_v25_apply, v24_read]
  exact add_sub_cancel_real (h1 i) _

/-! ## The hidden row -/

/-- The first contraction: entry (b, s, j) sums the quantized row (b, s) against the quantized weight row j. -/
theorem v27_read (x0 : (⟨S2x4096x2048, .f32⟩ : BufTy).Contents (Elt Ideal)) (x1 : (⟨S8192x2048, .f32⟩ : BufTy).Contents (Elt Ideal)) (h0 : ∀ i, IsReal (x0 i)) (h1 : ∀ i, IsReal (x1 i)) (b : Fin 2) (s : Fin 4096) (j : Fin 8192) :
    val_main_v27 (F := Ideal) x0 x1 (ix3 b s j)
      = ∑ k : Fin 2048, actQ (fun k => x0 (ix3 b s k)) k * wQ (absSum x1) (x1 (ix2 j k)) := by
  rw [val_main_v27_apply]
  refine Finset.sum_congr rfl fun k _ => ?_
  have el : lidx_main_v27 (ix3 b s j) k = ix3 b s k := by
    funext a; match a with | ⟨0, _⟩ => rfl | ⟨1, _⟩ => rfl | ⟨2, _⟩ => rfl
  have er : ridx_main_v27 (ix3 b s j) k = ix2 j k := by
    funext a; match a with | ⟨0, _⟩ => rfl | ⟨1, _⟩ => rfl
  rw [el, er, v13_read x0 h0, v26_read x1 h1]

/-- The hidden row of token (b, s), as the specification spells it from the reference's arguments. -/
abbrev refHidden (x0 : (⟨S2x4096x2048, .f32⟩ : BufTy).Contents (Elt Ideal)) (x1 : (⟨S8192x2048, .f32⟩ : BufTy).Contents (Elt Ideal)) (x2 : (⟨S8192, .f32⟩ : BufTy).Contents (Elt Ideal)) (b : Fin 2) (s : Fin 4096) : Fin 8192 → EReal :=
  hiddenRow (fun k => x0 (ix3 b s k)) (fun j k => wQ (absSum x1) (x1 (ix2 j k))) (fun j => x2 (ix1 j))

/-- The rectified affine image: entry (b, s, j) of the reference's hidden activations is the specification's. -/
theorem v31_read (x0 : (⟨S2x4096x2048, .f32⟩ : BufTy).Contents (Elt Ideal)) (x1 : (⟨S8192x2048, .f32⟩ : BufTy).Contents (Elt Ideal)) (x2 : (⟨S8192, .f32⟩ : BufTy).Contents (Elt Ideal)) (h0 : ∀ i, IsReal (x0 i)) (h1 : ∀ i, IsReal (x1 i)) (b : Fin 2) (s : Fin 4096) (j : Fin 8192) :
    val_main_v31 (F := Ideal) x0 x1 x2 (ix3 b s j) = refHidden x0 x1 x2 b s j := by
  have e : idx_main_v28 (idx_main_v29 (ix3 b s j)) = ix1 j := by
    funext a; match a with | ⟨0, _⟩ => rfl
  rw [val_main_v31_apply, val_main_v30_apply, v27_read x0 x1 h0 h1, val_main_v29_apply, val_main_v28_apply, e,
    val_main_call6_v0_apply, val_main_call6_cst_apply]
  rfl

/-- The hidden row is real when the inputs are. -/
theorem refHidden_isReal (x0 : (⟨S2x4096x2048, .f32⟩ : BufTy).Contents (Elt Ideal)) (x1 : (⟨S8192x2048, .f32⟩ : BufTy).Contents (Elt Ideal)) (x2 : (⟨S8192, .f32⟩ : BufTy).Contents (Elt Ideal)) (h0 : ∀ i, IsReal (x0 i)) (h1 : ∀ i, IsReal (x1 i)) (h2 : ∀ i, IsReal (x2 i)) (b : Fin 2) (s : Fin 4096) (j : Fin 8192) :
    IsReal (refHidden x0 x1 x2 b s j) :=
  hiddenRow_isReal _ _ _ (fun _ => h0 _) (fun _ _ => wQ_isReal (absSum_isReal x1 h1) _) (fun _ => h2 _) j

/-! ## The second layer's activations -/

/-- The largest magnitude of the hidden row of token (b, s). -/
theorem v33_read (x0 : (⟨S2x4096x2048, .f32⟩ : BufTy).Contents (Elt Ideal)) (x1 : (⟨S8192x2048, .f32⟩ : BufTy).Contents (Elt Ideal)) (x2 : (⟨S8192, .f32⟩ : BufTy).Contents (Elt Ideal)) (h0 : ∀ i, IsReal (x0 i)) (h1 : ∀ i, IsReal (x1 i)) (b : Fin 2) (s : Fin 4096) :
    val_main_v33 (F := Ideal) x0 x1 x2 (ix2 b s) = absMax (refHidden x0 x1 x2 b s) := by
  unfold val_main_v33
  refine (reduceMax3_apply (val_main_v32 (F := Ideal) x0 x1 x2) (val_main_cst_10 (F := Ideal)) _ (by decide) _ b s).trans ?_
  have hf : (fun k : Fin 8192 => val_main_v32 (F := Ideal) x0 x1 x2 (ix3 b s k))
      = fun k => max (refHidden x0 x1 x2 b s k) (-(refHidden x0 x1 x2 b s k)) := by
    funext k
    rw [val_main_v32_apply, v31_read x0 x1 x2 h0 h1]
    rfl
  rw [hf, val_main_cst_10_apply]
  rfl

/-- The scale of the hidden row of token (b, s). -/
theorem v37_read (x0 : (⟨S2x4096x2048, .f32⟩ : BufTy).Contents (Elt Ideal)) (x1 : (⟨S8192x2048, .f32⟩ : BufTy).Contents (Elt Ideal)) (x2 : (⟨S8192, .f32⟩ : BufTy).Contents (Elt Ideal)) (h0 : ∀ i, IsReal (x0 i)) (h1 : ∀ i, IsReal (x1 i)) (b : Fin 2) (s : Fin 4096) (u : Fin 1) :
    val_main_v37 (F := Ideal) x0 x1 x2 (ix3 b s u) = actScale (refHidden x0 x1 x2 b s) := by
  have e : idx_main_v34 (ix3 b s u) = ix2 b s := by
    funext a; match a with | ⟨0, _⟩ => rfl | ⟨1, _⟩ => rfl
  rw [val_main_v37_apply, val_main_v36_apply, val_main_cst_12_apply, val_main_v35_apply, val_main_call7_v1_apply,
    val_main_call7_v0_apply, val_main_cst_11_apply, val_main_v34_apply, e, v33_read x0 x1 x2 h0 h1]
  rfl

/-- The 8-bit quantization of the hidden activations, entry (b, s, k). -/
theorem v43_read (x0 : (⟨S2x4096x2048, .f32⟩ : BufTy).Contents (Elt Ideal)) (x1 : (⟨S8192x2048, .f32⟩ : BufTy).Contents (Elt Ideal)) (x2 : (⟨S8192, .f32⟩ : BufTy).Contents (Elt Ideal)) (h0 : ∀ i, IsReal (x0 i)) (h1 : ∀ i, IsReal (x1 i)) (b : Fin 2) (s : Fin 4096) (k : Fin 8192) :
    val_main_v43 (F := Ideal) x0 x1 x2 (ix3 b s k) = actQ (refHidden x0 x1 x2 b s) k := by
  have e38 : idx_main_v38 (ix3 b s k) = ix3 b s (0 : Fin 1) := by
    funext a; match a with | ⟨0, _⟩ => rfl | ⟨1, _⟩ => rfl | ⟨2, _⟩ => rfl
  have e42 : idx_main_v42 (ix3 b s k) = ix3 b s (0 : Fin 1) := by
    funext a; match a with | ⟨0, _⟩ => rfl | ⟨1, _⟩ => rfl | ⟨2, _⟩ => rfl
  rw [val_main_v43_apply, val_main_v42_apply, e42, v37_read x0 x1 x2 h0 h1, val_main_v41_apply, val_main_call9_v4_apply,
    val_main_call9_v3_apply, val_main_cst_14_apply, val_main_call9_v2_apply, val_main_call9_v1_apply,
    val_main_call9_v0_apply, val_main_cst_13_apply, val_main_v40_apply, val_main_v39_apply, val_main_v38_apply, e38,
    v37_read x0 x1 x2 h0 h1, v31_read x0 x1 x2 h0 h1]
  rfl

/-- The straight-through form h + (q - h) is q because the hidden activation h is real. -/
theorem v45_read (x0 : (⟨S2x4096x2048, .f32⟩ : BufTy).Contents (Elt Ideal)) (x1 : (⟨S8192x2048, .f32⟩ : BufTy).Contents (Elt Ideal)) (x2 : (⟨S8192, .f32⟩ : BufTy).Contents (Elt Ideal)) (h0 : ∀ i, IsReal (x0 i)) (h1 : ∀ i, IsReal (x1 i)) (h2 : ∀ i, IsReal (x2 i)) (b : Fin 2) (s : Fin 4096) (k : Fin 8192) :
    val_main_v45 (F := Ideal) x0 x1 x2 (ix3 b s k) = actQ (refHidden x0 x1 x2 b s) k := by
  rw [val_main_v45_apply, val_main_v44_apply, v43_read x0 x1 x2 h0 h1, v31_read x0 x1 x2 h0 h1]
  exact add_sub_cancel_real (refHidden_isReal x0 x1 x2 h0 h1 h2 b s k) _

/-! ## The second weight matrix -/

/-- Zero plus the sum of the absolute values of every entry of the matrix. -/
theorem v47_read (x3 : (⟨S2048x8192, .f32⟩ : BufTy).Contents (Elt Ideal)) (i : S_.Idx) : val_main_v47 (F := Ideal) x3 i = absSum x3 := by
  rw [val_main_v47_apply, val_main_cst_15_apply]
  simp only [val_main_v46_apply, Ideal.hostAbsf_def, Ideal.absf_def]
  rfl

/-- The matrix's scale: one over the larger of the floor and the mean absolute value. -/
theorem v50_read (x3 : (⟨S2048x8192, .f32⟩ : BufTy).Contents (Elt Ideal)) (i : S_.Idx) : val_main_v50 (F := Ideal) x3 i = wScale (absSum x3) := by
  rw [val_main_v50_apply, val_main_cst_18_apply, val_main_v49_apply, val_main_call10_v0_apply,
    val_main_cst_17_apply, val_main_v48_apply, v47_read, val_main_cst_16_apply]
  rfl

/-- The three-level quantization of one weight. -/
theorem v56_read (x3 : (⟨S2048x8192, .f32⟩ : BufTy).Contents (Elt Ideal)) (i : S2048x8192.Idx) : val_main_v56 (F := Ideal) x3 i = wQ (absSum x3) (x3 i) := by
  rw [val_main_v56_apply, val_main_v55_apply, v50_read, val_main_v54_apply, val_main_call12_v4_apply,
    val_main_call12_v3_apply, val_main_cst_20_apply, val_main_call12_v2_apply, val_main_call12_v1_apply,
    val_main_call12_v0_apply, val_main_cst_19_apply, val_main_v53_apply, val_main_v52_apply,
    val_main_v51_apply, v50_read]
  rfl

/-- The straight-through form w + (q - w) is q at a real weight w. -/
theorem v58_read (x3 : (⟨S2048x8192, .f32⟩ : BufTy).Contents (Elt Ideal)) (h3 : ∀ i, IsReal (x3 i)) (i : S2048x8192.Idx) : val_main_v58 (F := Ideal) x3 i = wQ (absSum x3) (x3 i) := by
  rw [val_main_v58_apply, val_main_v57_apply, v56_read]
  exact add_sub_cancel_real (h3 i) _

/-! ## The output row -/

/-- The second contraction: entry (b, s, d) sums the quantized hidden row against the quantized weight row d. -/
theorem v59_read (x0 : (⟨S2x4096x2048, .f32⟩ : BufTy).Contents (Elt Ideal)) (x1 : (⟨S8192x2048, .f32⟩ : BufTy).Contents (Elt Ideal)) (x2 : (⟨S8192, .f32⟩ : BufTy).Contents (Elt Ideal)) (x3 : (⟨S2048x8192, .f32⟩ : BufTy).Contents (Elt Ideal)) (h0 : ∀ i, IsReal (x0 i)) (h1 : ∀ i, IsReal (x1 i)) (h2 : ∀ i, IsReal (x2 i)) (h3 : ∀ i, IsReal (x3 i)) (b : Fin 2) (s : Fin 4096) (d : Fin 2048) :
    val_main_v59 (F := Ideal) x0 x1 x2 x3 (ix3 b s d)
      = ∑ k : Fin 8192, actQ (refHidden x0 x1 x2 b s) k * wQ (absSum x3) (x3 (ix2 d k)) := by
  rw [val_main_v59_apply]
  refine Finset.sum_congr rfl fun k _ => ?_
  have el : lidx_main_v59 (ix3 b s d) k = ix3 b s k := by
    funext a; match a with | ⟨0, _⟩ => rfl | ⟨1, _⟩ => rfl | ⟨2, _⟩ => rfl
  have er : ridx_main_v59 (ix3 b s d) k = ix2 d k := by
    funext a; match a with | ⟨0, _⟩ => rfl | ⟨1, _⟩ => rfl
  rw [el, er, v45_read x0 x1 x2 h0 h1 h2, v58_read x3 h3]

end Cert.BitMlp.Ref

namespace Cert.BitMlp

open Idealize.ShloMosaic Idealize.ShloMosaic.ValueIdx Cert.RealValued Cert.ReferenceIdeal Cert.ReferenceIdeal.ReadP

/-- THE REFERENCE READ AT AN INDEX: at real inputs its result at (b, s, d) is the specification's output row of
    token (b, s) at d, over the quantized weight matrices. -/
theorem ref_value [Cert.ReferenceIdeal.Facts]
    (x0 : (⟨S2x4096x2048, .f32⟩ : BufTy).Contents (Elt Ideal))
    (x1 : (⟨S8192x2048, .f32⟩ : BufTy).Contents (Elt Ideal))
    (x2 : (⟨S8192, .f32⟩ : BufTy).Contents (Elt Ideal))
    (x3 : (⟨S2048x8192, .f32⟩ : BufTy).Contents (Elt Ideal))
    (x4 : (⟨S2048, .f32⟩ : BufTy).Contents (Elt Ideal))
    (h0 : ∀ i, IsReal (x0 i)) (h1 : ∀ i, IsReal (x1 i)) (h2 : ∀ i, IsReal (x2 i)) (h3 : ∀ i, IsReal (x3 i)) (h4 : ∀ i, IsReal (x4 i))
    (b : Fin 2) (s : Fin 4096) (d : Fin 2048) :
    Cert.ReferenceIdeal.ReadP.val_main_v62 (F := Ideal) x0 x1 x2 x3 x4 (ix3 b s d)
      = outRow (fun k => x0 (ix3 b s k))
          (fun j k => wQ (absSum x1) (x1 (ix2 j k))) (fun j => x2 (ix1 j))
          (fun e k => wQ (absSum x3) (x3 (ix2 e k))) (fun e => x4 (ix1 e)) d := by
  have e : idx_main_v60 (idx_main_v61 (ix3 b s d)) = ix1 d := by
    funext a; match a with | ⟨0, _⟩ => rfl
  rw [val_main_v62_apply, Ref.v59_read x0 x1 x2 x3 h0 h1 h2 h3, val_main_v61_apply, val_main_v60_apply, e]
  rfl

end Cert.BitMlp

end
-- ==== Proof.Finite.lean ====
/-
  From the finiteness precondition to "every input entry is a real number".

  The precondition is a boolean program: for each of the five float inputs it compares the absolute value of
  every entry with +∞ (strictly below), conjoins the comparisons of one input over all its indices (a reduction
  by "and" starting from true), and conjoins the five results. Read on the extended reals, |x| = max x (-x),
  and the constant it is compared with denotes ⊤. An extended real x with max x (-x) < ⊤ is neither ⊤ (then
  max x (-x) = ⊤) nor ⊥ (then -x = ⊤), so it is the image of a real number.

  So: the conjunction of five bits is 1 exactly when each bit is 1; a reduction by "and" over all axes that is 1
  had a 1 at every index; and a 1 at index i of the comparison says max (x i) (-(x i)) < ⊤, i.e. x i is real.
-/
import proofs.«126453_j69544110457391_2_alg».proof.Pre_finite_inputs
import proofs.«126453_j69544110457391_2_alg».proof.Proof.LibRealValued
import Idealize.ShloMosaic.Lib.ReduceAll
import Idealize.ShloMosaic.Lib.ValueIdx

noncomputable section

namespace Cert.BitMlp

open Idealize.ShloMosaic
open Cert.RealValued

/-- The scalar shape has exactly one index. -/
instance subsingleton_scalar_idx : Subsingleton Cert.Pre_finite_inputs.S_.Idx :=
  ⟨fun a b => funext fun d => d.elim0⟩

/-- The f32 pattern 0x7F800000 denotes +∞. -/
theorem ofBits_posInf : Ideal.ofBits .f32 0x7F800000#32 = (⊤ : EReal) := by
  simp [Ideal.ofBits, Ideal.ieee]

/-- An extended real whose absolute value max x (-x) is strictly below ⊤ is the image of a real:
    ⊥ fails because -⊥ = ⊤, ⊤ fails because max ⊤ _ = ⊤. -/
theorem isReal_of_abs_lt_top (x : EReal) (h : max x (-x) < (⊤ : EReal)) : IsReal x := by
  induction x using EReal.rec with
  | bot => exact absurd h (by simp)
  | coe r => exact ⟨r, rfl⟩
  | top => exact absurd h (by simp)

/-- One entry of the comparison "|x| < +∞" being 1 says the entry of x is a real. The comparison, the absolute
    value, the broadcast of the scalar constant and the constant itself all read through at an index by
    definition; what is left is max (x i) (-(x i)) < ofBits 0x7F800000 as a decided proposition turned into a bit. -/
theorem isReal_of_cmp {s : Shape} (x : FVec Ideal s .f32)
    (hb : Cert.Pre_finite_inputs.S_.BroadcastsInDim s (![] : Fin 0 → Fin s.rank)) (i : s.Idx)
    (e : cmpf .olt (Host.absf x)
          (broadcastInDim s ![] hb (constant (F := Ideal) Cert.Pre_finite_inputs.S_ .f32 0x7F800000#32)) i = 1#1) :
    IsReal (x i) := by
  have e' : Ideal.cmp .olt (max (x i) (-(x i))) (Ideal.ofBits .f32 0x7F800000#32) = 1#1 := e
  rw [ofBits_posInf] at e'
  apply isReal_of_abs_lt_top
  unfold Ideal.cmp at e'
  by_contra hn
  simp [hn] at e'

/-- A reduction by "and" over all axes of the comparison "|x| < +∞" that is 1 makes every entry of x a real. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x)
            (broadcastInDim s ![] hb (constant (F := Ideal) Cert.Pre_finite_inputs.S_ .f32 0x7F800000#32)))
          init hr hu ValueIdx.ix0 = 1#1) (i : s.Idx) : IsReal (x i) :=
  isReal_of_cmp x hb i (Host.reduce_andi_all _ init hr hu ValueIdx.ix0 e i)

/-- THE PRECONDITION DECODED: if the finiteness predicate holds of the five inputs, read on the extended reals,
    every entry of every input is the image of a real number. -/
theorem real_of_finite [Cert.Pre_finite_inputs.Facts]
    (x0 : FVec Ideal Cert.Pre_finite_inputs.S2x4096x2048 .f32) (x1 : FVec Ideal Cert.Pre_finite_inputs.S8192x2048 .f32)
    (x2 : FVec Ideal Cert.Pre_finite_inputs.S8192 .f32) (x3 : FVec Ideal Cert.Pre_finite_inputs.S2048x8192 .f32)
    (x4 : FVec Ideal Cert.Pre_finite_inputs.S2048 .f32)
    (h : Cert.Pre_finite_inputs.fn (F := Ideal) x0 x1 x2 x3 x4 = fun _ => 1#1) :
    (∀ i, Cert.RealValued.IsReal (x0 i)) ∧ (∀ i, Cert.RealValued.IsReal (x1 i)) ∧ (∀ i, Cert.RealValued.IsReal (x2 i))
      ∧ (∀ i, Cert.RealValued.IsReal (x3 i)) ∧ (∀ i, Cert.RealValued.IsReal (x4 i)) := by
  have e := congrFun h ValueIdx.ix0
  dsimp only [Cert.Pre_finite_inputs.fn, Cert.Pre_finite_inputs.fn_part1] at e
  -- the result is the conjunction ((((all₀ ∧ all₁) ∧ all₂) ∧ all₃) ∧ all₄) of five bits, read at the one index
  have e5 : IntOp.andi (IntOp.andi (IntOp.andi (IntOp.andi _ _) _) _) _ = 1#1 := e
  rw [IntOp.andi_eq_one, IntOp.andi_eq_one, IntOp.andi_eq_one, IntOp.andi_eq_one] at e5
  obtain ⟨⟨⟨⟨e0, e1⟩, e2⟩, e3⟩, e4⟩ := e5
  exact ⟨isReal_of_all x0 _ _ _ _ e0, isReal_of_all x1 _ _ _ _ e1, isReal_of_all x2 _ _ _ _ e2,
    isReal_of_all x3 _ _ _ _ e3, isReal_of_all x4 _ _ _ _ e4⟩

end Cert.BitMlp

end
-- ==== Proof.lean ====
/-
  A two-layer perceptron whose activations are quantized to 8 bits per token row and whose weights are quantized to
  three levels per matrix, computed by two tiled kernels, against its plain array-program reference; both read on the
  extended reals, where a change of float format is the identity.

  Both programs quantize a row x by s = 127 / max (floor, max_k |x_k|) as clip (round (x * s), -128, 127) / s, and a
  weight matrix w by s = 1 / max (floor, mean |w|) as clip (round (w * s), -1, 1) / s; the hidden row of a token is
  max (q(x) W1^T + b1, 0) and its output row is q(h) W2^T + b2. The kernels tile these two products over a grid of
  blocks; since each block reads whole rows, a tile's entry is the layer's entry, and the tiles cover the arrays.

  The reference writes every quantized value q as a + (q - a), a the unquantized value (the straight-through form).
  On the extended reals a + (q - a) = q as soon as a is a real number. The inputs are real by the precondition; the
  hidden row is real because every scale is a positive real (the floor is), every clipped value lies between two reals,
  and finite sums and products of reals are real. So the two programs compute the same function, entry by entry.

  The idealization rewrote nothing, so the kernel's idealized program is its own text read on the extended reals.
-/
import proofs.«126453_j69544110457391_2_alg».proof.Defs
import proofs.«126453_j69544110457391_2_alg».proof.Proof.Gen.Kernel
import proofs.«126453_j69544110457391_2_alg».proof.Proof.Gen.Kernel.Skeleton
import proofs.«126453_j69544110457391_2_alg».proof.Proof.Gen.Kernel.Launch
import proofs.«126453_j69544110457391_2_alg».proof.Proof.Gen.Kernel.Points
import proofs.«126453_j69544110457391_2_alg».proof.Proof.Gen.Kernel.Frame
import proofs.«126453_j69544110457391_2_alg».proof.Proof.Gen.KernelIdeal
import proofs.«126453_j69544110457391_2_alg».proof.Proof.Gen.KernelIdeal.Skeleton
import proofs.«126453_j69544110457391_2_alg».proof.Proof.Gen.KernelIdeal.Launch
import proofs.«126453_j69544110457391_2_alg».proof.Proof.Gen.KernelIdeal.Points
import proofs.«126453_j69544110457391_2_alg».proof.Proof.Gen.KernelIdeal.Frame
import proofs.«126453_j69544110457391_2_alg».proof.Proof.Gen.ReferenceIdeal
import proofs.«126453_j69544110457391_2_alg».proof.Proof.Gen.Pre_finite_inputs
import proofs.«126453_j69544110457391_2_alg».proof.Proof.ReadP
import proofs.«126453_j69544110457391_2_alg».proof.Proof.RefRun
import proofs.«126453_j69544110457391_2_alg».proof.Proof.KernelRun
import proofs.«126453_j69544110457391_2_alg».proof.Proof.KernelValue
import proofs.«126453_j69544110457391_2_alg».proof.Proof.RefValue
import proofs.«126453_j69544110457391_2_alg».proof.Proof.Finite
import Idealize.ShloMosaic.Adequacy
import Idealize.ShloMosaic.Init

noncomputable section

namespace Cert.Proof

open Idealize.ShloMosaic Idealize.SL.Sem Idealize.ShloMosaic.ValueIdx

/-- The kernel program as printed terminates without fault and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of array operations: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Nothing was rewritten on the way to the extended reals. -/
theorem preserves : Cert.preserves_Kernel_KernelIdeal := trivial

/-- From memories agreeing on finite arguments both programs end with the same result: entry (b, s, d) of either is the
    output row of token (b, s) at d. -/
theorem algebraic : Cert.algebraic_KernelIdeal_ReferenceIdeal := by
  intro m ρ m' ρ' hpre hagree
  refine ⟨fun c => Cert.KernelIdeal.Gen.W16 (F := Ideal) m ρ c (Proc.devRef .tc Cert.KernelIdeal.main_v29),
    Cert.BitMlp.run_value (F := Ideal) m ρ, ?_⟩
  refine (θ_run Cert.ReferenceIdeal.defs _ _).mono (fun _ h c => ⟨(h c).1.trans ?_, (h c).2⟩)
    (Cert.BitMlp.ref_run (F := Ideal) m' ρ')
  obtain ⟨r0, r1, r2, r3, r4⟩ := Cert.BitMlp.real_of_finite _ _ _ _ _ (hpre c)
  obtain ⟨a0, a1, a2, a3, a4⟩ := hagree c
  rw [a0, a1, a2, a3, a4]
  funext i
  obtain ⟨b, s, d, rfl⟩ : ∃ (b : Fin 2) (s : Fin 4096) (d : Fin 2048), i = ix3 b s d := ⟨i 0, i 1, i 2, eq_ix3 i⟩
  exact (Cert.BitMlp.ref_value _ _ _ _ _ r0 r1 r2 r3 r4 b s d).trans (Cert.BitMlp.kernel_value m ρ c b s d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
